-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x274 : Shape := ⟨3, ![128, 512, 274]⟩
abbrev S128x2x512x137 : Shape := ⟨4, ![128, 2, 512, 137]⟩
abbrev S128 : Shape := ⟨1, ![128]⟩
abbrev S_ : Shape := ⟨0, ![]⟩

class Facts : Prop where
  bcast_S_S128x512x274 : S_.BroadcastsInDim S128x512x274 (![] : Fin 0 → Fin S128x512x274.rank)
  reducesTo_S128x512x274_S_d0_1_2 : S128x512x274.ReducesTo [0, 1, 2] S_
  h_S_ : 0 < S_.numel
  bcast_S_S128x2x512x137 : S_.BroadcastsInDim S128x2x512x137 (![] : Fin 0 → Fin S128x2x512x137.rank)
  reducesTo_S128x2x512x137_S_d0_1_2_3 : S128x2x512x137.ReducesTo [0, 1, 2, 3] S_

variable [Facts]

def fn {F : FTy → Type} [FloatOps F] (main_arg0 : FVec F S128x512x274 .f32) (main_arg1 : FVec F S128x2x512x137 .f32) (main_arg2 : IVec S128 32) : IVec S_ 1 :=
  let main_v0 : FVec F S128x512x274 .f32 := Host.absf main_arg0
  let main_cst : FVec F S_ .f32 := constant S_ .f32 0x7F800000#32
  let main_v1 : FVec F S128x512x274 .f32 := broadcastInDim S128x512x274 ![] bcast_S_S128x512x274 main_cst
  let main_v2 : IVec S128x512x274 1 := cmpf .olt main_v0 main_v1
  let main_c : IVec S_ 1 := constantI S_ 1 1#1
  let main_v3 : IVec S_ 1 := (fun x v => Host.reduce IntOp.andi x v reducesTo_S128x512x274_S_d0_1_2 h_S_) main_v2 main_c
  let main_v4 : FVec F S128x2x512x137 .f32 := Host.absf main_arg1
  let main_cst_0 : FVec F S_ .f32 := constant S_ .f32 0x7F800000#32
  let main_v5 : FVec F S128x2x512x137 .f32 := broadcastInDim S128x2x512x137 ![] bcast_S_S128x2x512x137 main_cst_0
  let main_v6 : IVec S128x2x512x137 1 := cmpf .olt main_v4 main_v5
  let main_c_1 : IVec S_ 1 := constantI S_ 1 1#1
  let main_v7 : IVec S_ 1 := (fun x v => Host.reduce IntOp.andi x v reducesTo_S128x2x512x137_S_d0_1_2_3 h_S_) main_v6 main_c_1
  let main_v8 : IVec S_ 1 := andi main_v3 main_v7
  main_v8
-- ==== Kernel.lean ====
abbrev S128x512x274 : Shape := ⟨3, ![128, 512, 274]⟩
abbrev S128x2x512x137 : Shape := ⟨4, ![128, 2, 512, 137]⟩
abbrev S128 : Shape := ⟨1, ![128]⟩
abbrev S128x512x137x2 : Shape := ⟨4, ![128, 512, 137, 2]⟩
abbrev S512 : Shape := ⟨1, ![512]⟩
abbrev S1x512 : Shape := ⟨2, ![1, 512]⟩
abbrev S128x1 : Shape := ⟨2, ![128, 1]⟩
abbrev S128x512 : Shape := ⟨2, ![128, 512]⟩
abbrev S128x512x1 : Shape := ⟨3, ![128, 512, 1]⟩
abbrev S511 : Shape := ⟨1, ![511]⟩
abbrev S1x511 : Shape := ⟨2, ![1, 511]⟩
abbrev S_ : Shape := ⟨0, ![]⟩
abbrev S128x511 : Shape := ⟨2, ![128, 511]⟩
abbrev S128x511x1 : Shape := ⟨3, ![128, 511, 1]⟩
abbrev S32x8x128 : Shape := ⟨3, ![32, 8, 128]⟩
abbrev S4x512x274 : Shape := ⟨3, ![4, 512, 274]⟩
abbrev S4x512x1 : Shape := ⟨3, ![4, 512, 1]⟩
abbrev S4x511x1 : Shape := ⟨3, ![4, 511, 1]⟩
abbrev S1x8x128 : Shape := ⟨3, ![1, 8, 128]⟩
abbrev S4x512 : Shape := ⟨2, ![4, 512]⟩
abbrev S4x511 : Shape := ⟨2, ![4, 511]⟩
abbrev S4x511x274 : Shape := ⟨3, ![4, 511, 274]⟩
abbrev S4 : Shape := ⟨1, ![4]⟩
abbrev S4x1 : Shape := ⟨2, ![4, 1]⟩
abbrev S1 : Shape := ⟨1, ![1]⟩
abbrev S1x1 : Shape := ⟨2, ![1, 1]⟩
abbrev S4x512x272 : Shape := ⟨3, ![4, 512, 272]⟩
abbrev S1x124 : Shape := ⟨2, ![1, 124]⟩
abbrev S1x128 : Shape := ⟨2, ![1, 128]⟩
abbrev S7x128 : Shape := ⟨2, ![7, 128]⟩
abbrev S8x128 : Shape := ⟨2, ![8, 128]⟩
abbrev S32x1x1 : Shape := ⟨3, ![32, 1, 1]⟩
abbrev S32 : Shape := ⟨1, ![32]⟩

abbrev nBuf : Space → Nat
  | .hbm => 48
  | .vmem => 10
  | .smem => 0
  | _ => 0

abbrev bufTy : (tb : Table) → Fin (tcTables nBuf tb) → BufTy
  | .hbm, ⟨0, _⟩ => ⟨S128x512x274, .f32⟩
  | .hbm, ⟨1, _⟩ => ⟨S128x2x512x137, .f32⟩
  | .hbm, ⟨2, _⟩ => ⟨S128, .i32⟩
  | .hbm, ⟨3, _⟩ => ⟨S128x512x137x2, .f32⟩
  | .hbm, ⟨4, _⟩ => ⟨S128x512x274, .f32⟩
  | .hbm, ⟨5, _⟩ => ⟨S512, .i32⟩
  | .hbm, ⟨6, _⟩ => ⟨S1x512, .i32⟩
  | .hbm, ⟨7, _⟩ => ⟨S128x1, .i32⟩
  | .hbm, ⟨8, _⟩ => ⟨S128x512, .i32⟩
  | .hbm, ⟨9, _⟩ => ⟨S128x512, .i32⟩
  | .hbm, ⟨10, _⟩ => ⟨S128x512, .i1⟩
  | .hbm, ⟨11, _⟩ => ⟨S128x512, .f32⟩
  | .hbm, ⟨12, _⟩ => ⟨S128x512x1, .f32⟩
  | .hbm, ⟨13, _⟩ => ⟨S511, .i32⟩
  | .hbm, ⟨14, _⟩ => ⟨S1x511, .i32⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S128x1, .i32⟩
  | .hbm, ⟨19, _⟩ => ⟨S128x511, .i32⟩
  | .hbm, ⟨20, _⟩ => ⟨S128x511, .i32⟩
  | .hbm, ⟨21, _⟩ => ⟨S128x511, .i1⟩
  | .hbm, ⟨22, _⟩ => ⟨S128x511, .f32⟩
  | .hbm, ⟨23, _⟩ => ⟨S128x511x1, .f32⟩
  | .hbm, ⟨24, _⟩ => ⟨S32x8x128, .f32⟩
  | .hbm, ⟨25, _⟩ => ⟨S32x1x1, .f32⟩
  | .hbm, ⟨26, _⟩ => ⟨S32, .f32⟩
  | .hbm, ⟨27, _⟩ => ⟨S_, .f32⟩
  | .hbm, ⟨28, _⟩ => ⟨S_, .f32⟩
  | .hbm, ⟨29, _⟩ => ⟨S32x1x1, .f32⟩
  | .hbm, ⟨30, _⟩ => ⟨S32, .f32⟩
  | .hbm, ⟨31, _⟩ => ⟨S_, .f32⟩
  | .hbm, ⟨32, _⟩ => ⟨S_, .f32⟩
  | .hbm, ⟨33, _⟩ => ⟨S32x1x1, .f32⟩
  | .hbm, ⟨34, _⟩ => ⟨S32, .f32⟩
  | .hbm, ⟨35, _⟩ => ⟨S_, .f32⟩
  | .hbm, ⟨36, _⟩ => ⟨S_, .f32⟩
  | .hbm, ⟨37, _⟩ => ⟨S32x1x1, .f32⟩
  | .hbm, ⟨38, _⟩ => ⟨S32, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S4x512x274, .f32⟩
  | .local _ .vmem, ⟨1, _⟩ => ⟨S4x512x274, .f32⟩
  | .local _ .vmem, ⟨2, _⟩ => ⟨S4x512x274, .f32⟩
  | .local _ .vmem, ⟨3, _⟩ => ⟨S4x512x274, .f32⟩
  | .local _ .vmem, ⟨4, _⟩ => ⟨S4x512x1, .f32⟩
  | .local _ .vmem, ⟨5, _⟩ => ⟨S4x512x1, .f32⟩
  | .local _ .vmem, ⟨6, _⟩ => ⟨S4x511x1, .f32⟩
  | .local _ .vmem, ⟨7, _⟩ => ⟨S4x511x1, .f32⟩
  | .local _ .vmem, ⟨8, _⟩ => ⟨S1x8x128, .f32⟩
  | .local _ .vmem, ⟨9, _⟩ => ⟨S1x8x128, .f32⟩
  | _, _ => ⟨S128x512x274, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x274 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x274 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x511x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x2x512x137_S128x512x137x2_0_2_3_1 : S128x2x512x137.Transposes [0, 2, 3, 1] S128x512x137x2
  shapeCasts_S128x512x137x2_S128x512x274 : S128x512x137x2.ShapeCasts S128x512x274
  bcast_S512_S1x512_1 : S512.BroadcastsInDim S1x512 (![1] : Fin 1 → Fin S1x512.rank)
  bcast_S128_S128x1_0 : S128.BroadcastsInDim S128x1 (![0] : Fin 1 → Fin S128x1.rank)
  bcast_S1x512_S128x512_0_1 : S1x512.BroadcastsInDim S128x512 (![0, 1] : Fin 2 → Fin S128x512.rank)
  bcast_S128x1_S128x512_0_1 : S128x1.BroadcastsInDim S128x512 (![0, 1] : Fin 2 → Fin S128x512.rank)
  bcast_S128x512_S128x512x1_0_1 : S128x512.BroadcastsInDim S128x512x1 (![0, 1] : Fin 2 → Fin S128x512x1.rank)
  slices_S512_S511_0 : S512.Slices ![0] S511
  bcast_S511_S1x511_1 : S511.BroadcastsInDim S1x511 (![1] : Fin 1 → Fin S1x511.rank)
  bcast_S_S128 : S_.BroadcastsInDim S128 (![] : Fin 0 → Fin S128.rank)
  bcast_S1x511_S128x511_0_1 : S1x511.BroadcastsInDim S128x511 (![0, 1] : Fin 2 → Fin S128x511.rank)
  bcast_S128x1_S128x511_0_1 : S128x1.BroadcastsInDim S128x511 (![0, 1] : Fin 2 → Fin S128x511.rank)
  bcast_S128x511_S128x511x1_0_1 : S128x511.BroadcastsInDim S128x511x1 (![0, 1] : Fin 2 → Fin S128x511x1.rank)
  inb_S4x512x274_S4x512x274_0_0_0 : ∀ a, (![0, 0, 0] : Fin 3 → Nat) a + S4x512x274.size a ≤ S4x512x274.size a
  h_S4x512x274 : 0 < S4x512x274.numel
  shapeCasts_S4x512x274_S4x512x274 : S4x512x274.ShapeCasts S4x512x274
  inb_S4x512x1_S4x512x1_0_0_0 : ∀ a, (![0, 0, 0] : Fin 3 → Nat) a + S4x512x1.size a ≤ S4x512x1.size a
  h_S4x512x1 : 0 < S4x512x1.numel
  shapeCasts_S4x512x1_S4x512 : S4x512x1.ShapeCasts S4x512
  inb_S4x511x1_S4x511x1_0_0_0 : ∀ a, (![0, 0, 0] : Fin 3 → Nat) a + S4x511x1.size a ≤ S4x511x1.size a
  h_S4x511x1 : 0 < S4x511x1.numel
  shapeCasts_S4x511x1_S4x511 : S4x511x1.ShapeCasts S4x511
  slices_S4x512x274_o0_0_0_S4x511x274 : S4x512x274.Slices ![0, 0, 0] S4x511x274
  slices_S4x512x274_o0_1_0_S4x511x274 : S4x512x274.Slices ![0, 1, 0] S4x511x274
  reduces_S4x511x274_S4x511 : S4x511x274.Reduces [2] S4x511
  reduces_S4x511_S4 : S4x511.Reduces [1] S4
  shapeCasts_S4_S4x1 : S4.ShapeCasts S4x1
  reduces_S4x1_S1 : S4x1.Reduces [0] S1
  shapeCasts_S1_S1x1 : S1.ShapeCasts S1x1
  slices_S4x512x274_o0_0_2_S4x512x272 : S4x512x274.Slices ![0, 0, 2] S4x512x272
  slices_S4x512x274_o0_0_0_S4x512x272 : S4x512x274.Slices ![0, 0, 0] S4x512x272
  reduces_S4x512x272_S4x512 : S4x512x272.Reduces [2] S4x512
  reduces_S4x512_S4 : S4x512.Reduces [1] S4
  concatenates_S1x1_S1x1_S1x1_S1x1_S1x124_S1x128_d1 : Shape.Concatenates [S1x1, S1x1, S1x1, S1x1, S1x124] S1x128 1
  concatenates_S1x128_S7x128_S8x128_d0 : Shape.Concatenates [S1x128, S7x128] S8x128 0
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S32x8x128_S32x1x1_0_0_0 : S32x8x128.Slices ![0, 0, 0] S32x1x1
  shapeCasts_S32x1x1_S32 : S32x1x1.ShapeCasts S32
  reducesTo_S32_S_d0 : S32.ReducesTo [0] S_
  h_S_ : 0 < S_.numel
  slices_S32x8x128_S32x1x1_0_0_1 : S32x8x128.Slices ![0, 0, 1] S32x1x1
  slices_S32x8x128_S32x1x1_0_0_2 : S32x8x128.Slices ![0, 0, 2] S32x1x1
  slices_S32x8x128_S32x1x1_0_0_3 : S32x8x128.Slices ![0, 0, 3] S32x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x274.size a ≤ S128x512x274.size a
  hwx0_0 : ∀ i : grid0.Coords, EltTy.bits .f32 = 32 ∨ (Rect.block (s := S128x512x274) S4x512x274.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x274.size a ≤ S128x512x274.size a
  hwx0_1 : ∀ i : grid0.Coords, EltTy.bits .f32 = 32 ∨ (Rect.block (s := S128x512x274) S4x512x274.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1.size a ≤ S128x512x1.size a
  hwx0_2 : ∀ i : grid0.Coords, EltTy.bits .f32 = 32 ∨ (Rect.block (s := S128x512x1) S4x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x511x1.size a ≤ S128x511x1.size a
  hwx0_3 : ∀ i : grid0.Coords, EltTy.bits .f32 = 32 ∨ (Rect.block (s := S128x511x1) S4x511x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S32x8x128.size a
  hwx0_4 : ∀ i : grid0.Coords, EltTy.bits .f32 = 32 ∨ (Rect.block (s := S32x8x128) S1x8x128.size (cc0_transform_4 i) (hinb0_4 i)).WholeWords (EltTy.packing .f32)

variable [Facts₀]

abbrev win0_0 : Pipeline.Window sig grid0 :=
  Pipeline.Window.ofSpec (Memref.whole main_arg0) S4x512x274.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x512x274.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S4x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S4x511x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x512x274 : Shape := ⟨3, ![128, 512, 274]⟩
abbrev S128x2x512x137 : Shape := ⟨4, ![128, 2, 512, 137]⟩
abbrev S128 : Shape := ⟨1, ![128]⟩
abbrev S136 : Shape := ⟨1, ![136]⟩
abbrev S128x512x137x2 : Shape := ⟨4, ![128, 512, 137, 2]⟩
abbrev S512 : Shape := ⟨1, ![512]⟩
abbrev S1x512 : Shape := ⟨2, ![1, 512]⟩
abbrev S128x1 : Shape := ⟨2, ![128, 1]⟩
abbrev S128x512 : Shape := ⟨2, ![128, 512]⟩
abbrev S511 : Shape := ⟨1, ![511]⟩
abbrev S1x511 : Shape := ⟨2, ![1, 511]⟩
abbrev S_ : Shape := ⟨0, ![]⟩
abbrev S128x511 : Shape := ⟨2, ![128, 511]⟩
abbrev S128x511x274 : Shape := ⟨3, ![128, 511, 274]⟩
abbrev S136x1 : Shape := ⟨2, ![136, 1]⟩
abbrev S128x512x136x2 : Shape := ⟨4, ![128, 512, 136, 2]⟩
abbrev S128x512x136 : Shape := ⟨3, ![128, 512, 136]⟩

abbrev nBuf : Space → Nat
  | .hbm => 102
  | .vmem => 0
  | .smem => 0
  | _ => 0

abbrev bufTy : (tb : Table) → Fin (tcTables nBuf tb) → BufTy
  | .hbm, ⟨0, _⟩ => ⟨S128x512x274, .f32⟩
  | .hbm, ⟨1, _⟩ => ⟨S128x2x512x137, .f32⟩
  | .hbm, ⟨2, _⟩ => ⟨S128, .i32⟩
  | .hbm, ⟨3, _⟩ => ⟨S136, .i32⟩
  | .hbm, ⟨4, _⟩ => ⟨S136, .i32⟩
  | .hbm, ⟨5, _⟩ => ⟨S128x512x137x2, .f32⟩
  | .hbm, ⟨6, _⟩ => ⟨S128x512x274, .f32⟩
  | .hbm, ⟨7, _⟩ => ⟨S512, .i32⟩
  | .hbm, ⟨8, _⟩ => ⟨S1x512, .i32⟩
  | .hbm, ⟨9, _⟩ => ⟨S128x1, .i32⟩
  | .hbm, ⟨10, _⟩ => ⟨S128x512, .i32⟩
  | .hbm, ⟨11, _⟩ => ⟨S128x512, .i32⟩
  | .hbm, ⟨12, _⟩ => ⟨S128x512, .i1⟩
  | .hbm, ⟨13, _⟩ => ⟨S128x512, .f32⟩
  | .hbm, ⟨14, _⟩ => ⟨S511, .i32⟩
  | .hbm, ⟨15, _⟩ => ⟨S1x511, .i32⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128x1, .i32⟩
  | .hbm, ⟨20, _⟩ => ⟨S128x511, .i32⟩
  | .hbm, ⟨21, _⟩ => ⟨S128x511, .i32⟩
  | .hbm, ⟨22, _⟩ => ⟨S128x511, .i1⟩
  | .hbm, ⟨23, _⟩ => ⟨S128x511, .f32⟩
  | .hbm, ⟨24, _⟩ => ⟨S128x511x274, .f32⟩
  | .hbm, ⟨25, _⟩ => ⟨S128x511x274, .f32⟩
  | .hbm, ⟨26, _⟩ => ⟨S128x511x274, .f32⟩
  | .hbm, ⟨27, _⟩ => ⟨S128x511x274, .f32⟩
  | .hbm, ⟨28, _⟩ => ⟨S_, .f32⟩
  | .hbm, ⟨29, _⟩ => ⟨S128x511, .f32⟩
  | .hbm, ⟨30, _⟩ => ⟨S_, .f32⟩
  | .hbm, ⟨31, _⟩ => ⟨S128x511, .f32⟩
  | .hbm, ⟨32, _⟩ => ⟨S128x511, .f32⟩
  | .hbm, ⟨33, _⟩ => ⟨S128x511, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S128x512x137x2, .f32⟩
  | .hbm, ⟨40, _⟩ => ⟨S128x512x137x2, .f32⟩
  | .hbm, ⟨41, _⟩ => ⟨S_, .i32⟩
  | .hbm, ⟨42, _⟩ => ⟨S136, .i32⟩
  | .hbm, ⟨43, _⟩ => ⟨S136, .i1⟩
  | .hbm, ⟨44, _⟩ => ⟨S_, .i32⟩
  | .hbm, ⟨45, _⟩ => ⟨S136, .i32⟩
  | .hbm, ⟨46, _⟩ => ⟨S136, .i32⟩
  | .hbm, ⟨47, _⟩ => ⟨S136, .i32⟩
  | .hbm, ⟨48, _⟩ => ⟨S136x1, .i32⟩
  | .hbm, ⟨49, _⟩ => ⟨S128x512x136x2, .f32⟩
  | .hbm, ⟨50, _⟩ => ⟨S_, .i32⟩
  | .hbm, ⟨51, _⟩ => ⟨S136, .i32⟩
  | .hbm, ⟨52, _⟩ => ⟨S136, .i1⟩
  | .hbm, ⟨53, _⟩ => ⟨S_, .i32⟩
  | .hbm, ⟨54, _⟩ => ⟨S136, .i32⟩
  | .hbm, ⟨55, _⟩ => ⟨S136, .i32⟩
  | .hbm, ⟨56, _⟩ => ⟨S136, .i32⟩
  | .hbm, ⟨57, _⟩ => ⟨S136x1, .i32⟩
  | .hbm, ⟨58, _⟩ => ⟨S128x512x136x2, .f32⟩
  | .hbm, ⟨59, _⟩ => ⟨S128x512x136x2, .f32⟩
  | .hbm, ⟨60, _⟩ => ⟨S_, .i32⟩
  | .hbm, ⟨61, _⟩ => ⟨S136, .i32⟩
  | .hbm, ⟨62, _⟩ => ⟨S136, .i1⟩
  | .hbm, ⟨63, _⟩ => ⟨S_, .i32⟩
  | .hbm, ⟨64, _⟩ => ⟨S136, .i32⟩
  | .hbm, ⟨65, _⟩ => ⟨S136, .i32⟩
  | .hbm, ⟨66, _⟩ => ⟨S136, .i32⟩
  | .hbm, ⟨67, _⟩ => ⟨S136x1, .i32⟩
  | .hbm, ⟨68, _⟩ => ⟨S128x512x136x2, .f32⟩
  | .hbm, ⟨69, _⟩ => ⟨S_, .i32⟩
  | .hbm, ⟨70, _⟩ => ⟨S136, .i32⟩
  | .hbm, ⟨71, _⟩ => ⟨S136, .i1⟩
  | .hbm, ⟨72, _⟩ => ⟨S_, .i32⟩
  | .hbm, ⟨73, _⟩ => ⟨S136, .i32⟩
  | .hbm, ⟨74, _⟩ => ⟨S136, .i32⟩
  | .hbm, ⟨75, _⟩ => ⟨S136, .i32⟩
  | .hbm, ⟨76, _⟩ => ⟨S136x1, .i32⟩
  | .hbm, ⟨77, _⟩ => ⟨S128x512x136x2, .f32⟩
  | .hbm, ⟨78, _⟩ => ⟨S128x512x136x2, .f32⟩
  | .hbm, ⟨79, _⟩ => ⟨S128x512x136x2, .f32⟩
  | .hbm, ⟨80, _⟩ => ⟨S128x512x136x2, .f32⟩
  | .hbm, ⟨81, _⟩ => ⟨S_, .f32⟩
  | .hbm, ⟨82, _⟩ => ⟨S128x512x136, .f32⟩
  | .hbm, ⟨83, _⟩ => ⟨S_, .f32⟩
  | .hbm, ⟨84, _⟩ => ⟨S128x512x136, .f32⟩
  | .hbm, ⟨85, _⟩ => ⟨S128x512x136, .f32⟩
  | .hbm, ⟨86, _⟩ => ⟨S_, .f32⟩
  | .hbm, ⟨87, _⟩ => ⟨S128x512, .f32⟩
  | .hbm, ⟨88, _⟩ => ⟨S_, .f32⟩
  | .hbm, ⟨89, _⟩ => ⟨S128x512, .f32⟩
  | .hbm, ⟨90, _⟩ => ⟨S128x512, .f32⟩
  | .hbm, ⟨91, _⟩ => ⟨S128x512, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S128x512x274, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_c_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_7 : Ref sig .tc := ⟨.hbm, 50, rfl⟩
abbrev main_v38 : Ref sig .tc := ⟨.hbm, 51, rfl⟩
abbrev main_v39 : Ref sig .tc := ⟨.hbm, 52, rfl⟩
abbrev main_c_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_9 : Ref sig .tc := ⟨.hbm, 60, rfl⟩
abbrev main_v46 : Ref sig .tc := ⟨.hbm, 61, rfl⟩
abbrev main_v47 : Ref sig .tc := ⟨.hbm, 62, rfl⟩
abbrev main_c_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_11 : Ref sig .tc := ⟨.hbm, 69, rfl⟩
abbrev main_v53 : Ref sig .tc := ⟨.hbm, 70, rfl⟩
abbrev main_v54 : Ref sig .tc := ⟨.hbm, 71, rfl⟩
abbrev main_c_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_cst_14 : Ref sig .tc := ⟨.hbm, 83, rfl⟩
abbrev main_v64 : Ref sig .tc := ⟨.hbm, 84, rfl⟩
abbrev main_v65 : Ref sig .tc := ⟨.hbm, 85, rfl⟩
abbrev main_cst_15 : Ref sig .tc := ⟨.hbm, 86, rfl⟩
abbrev main_v66 : Ref sig .tc := ⟨.hbm, 87, rfl⟩
abbrev main_cst_16 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_17 : Ref sig .tc := ⟨.hbm, 92, rfl⟩
abbrev main_v70 : Ref sig .tc := ⟨.hbm, 93, rfl⟩
abbrev main_cst_18 : Ref sig .tc := ⟨.hbm, 94, rfl⟩
abbrev main_v71 : Ref sig .tc := ⟨.hbm, 95, rfl⟩
abbrev main_v72 : Ref sig .tc := ⟨.hbm, 96, rfl⟩
abbrev main_cst_19 : Ref sig .tc := ⟨.hbm, 97, rfl⟩
abbrev main_v73 : Ref sig .tc := ⟨.hbm, 98, rfl⟩
abbrev main_cst_20 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]

class Facts₀ : Prop where
  transposes_S128x2x512x137_S128x512x137x2_0_2_3_1 : S128x2x512x137.Transposes [0, 2, 3, 1] S128x512x137x2
  shapeCasts_S128x512x137x2_S128x512x274 : S128x512x137x2.ShapeCasts S128x512x274
  bcast_S512_S1x512_1 : S512.BroadcastsInDim S1x512 (![1] : Fin 1 → Fin S1x512.rank)
  bcast_S128_S128x1_0 : S128.BroadcastsInDim S128x1 (![0] : Fin 1 → Fin S128x1.rank)
  bcast_S1x512_S128x512_0_1 : S1x512.BroadcastsInDim S128x512 (![0, 1] : Fin 2 → Fin S128x512.rank)
  bcast_S128x1_S128x512_0_1 : S128x1.BroadcastsInDim S128x512 (![0, 1] : Fin 2 → Fin S128x512.rank)
  slices_S512_S511_0 : S512.Slices ![0] S511
  bcast_S511_S1x511_1 : S511.BroadcastsInDim S1x511 (![1] : Fin 1 → Fin S1x511.rank)
  bcast_S_S128 : S_.BroadcastsInDim S128 (![] : Fin 0 → Fin S128.rank)
  bcast_S1x511_S128x511_0_1 : S1x511.BroadcastsInDim S128x511 (![0, 1] : Fin 2 → Fin S128x511.rank)
  bcast_S128x1_S128x511_0_1 : S128x1.BroadcastsInDim S128x511 (![0, 1] : Fin 2 → Fin S128x511.rank)
  slices_S128x512x274_S128x511x274_0_0_0 : S128x512x274.Slices ![0, 0, 0] S128x511x274
  slices_S128x512x274_S128x511x274_0_1_0 : S128x512x274.Slices ![0, 1, 0] S128x511x274
  reducesTo_S128x511x274_S128x511_d2 : S128x511x274.ReducesTo [2] S128x511
  h_S_ : 0 < S_.numel
  bcast_S_S128x511 : S_.BroadcastsInDim S128x511 (![] : Fin 0 → Fin S128x511.rank)
  reducesTo_S128x511_S_d0_1 : S128x511.ReducesTo [0, 1] S_
  shapeCasts_S128x512x274_S128x512x137x2 : S128x512x274.ShapeCasts S128x512x137x2
  bcast_S_S136 : S_.BroadcastsInDim S136 (![] : Fin 0 → Fin S136.rank)
  bcast_S136_S136x1_0 : S136.BroadcastsInDim S136x1 (![0] : Fin 1 → Fin S136x1.rank)
  reducesTo_S128x512x136x2_S128x512x136_d3 : S128x512x136x2.ReducesTo [3] S128x512x136
  bcast_S_S128x512x136 : S_.BroadcastsInDim S128x512x136 (![] : Fin 0 → Fin S128x512x136.rank)
  reducesTo_S128x512x136_S128x512_d2 : S128x512x136.ReducesTo [2] S128x512
  bcast_S_S128x512 : S_.BroadcastsInDim S128x512 (![] : Fin 0 → Fin S128x512.rank)
  reducesTo_S128x512_S_d0_1 : S128x512.ReducesTo [0, 1] S_
  gather_S128x512x137x2_S136x1_S128x512x136x2_013_2_n_n_2_1_12851212_wf : GatherDims.WF S128x512x137x2 S136x1 S128x512x136x2 [0, 1, 3] [2] [] [2] [] 1 ![128, 512, 1, 2]

variable [Facts₀]

def gather_S128x512x137x2_S136x1_S128x512x136x2_013_2_n_n_2_1_12851212 : GatherDims S128x512x137x2 S136x1 S128x512x136x2 where
  offsetDims := [0, 1, 3]
  collapsedSliceDims := [2]
  operandBatchingDims := []
  startIndicesBatchingDims := []
  startIndexMap := [2]
  indexVectorDim := 1
  sliceSizes := ![128, 512, 1, 2]
  wf := gather_S128x512x137x2_S136x1_S128x512x136x2_013_2_n_n_2_1_12851212_wf

class Facts : Prop extends Facts₀ where

variable [Facts]
-- ==== Proof.LossSpec.lean ====
/-
  The loss the two programs compute, stated once over plain coordinates and the extended reals, with no program in
  sight.

  The data: `a`, the predicted poses [128, 512, 274]; `tp`, the target poses relaid to the same shape; `mk` [128, 512],
  the 0/1 mask of the time steps before a sample's length; `pm` [128, 511], the same for the length less one.

  * pose term of (b, s), s < 511:   (Σ_{d<274} |a[b,s,d] − tp[b,s+1,d]|) / 274, weighted by pm[b,s];
  * bone term of (b, s), s < 512:   (Σ_{d<272} ((a[b,s,d+2] − a[b,s,d]) − (tp[b,s,d+2] − tp[b,s,d]))²) / 272, weighted by mk[b,s];
  * each loss is the weighted total over (b, s) divided by the total weight; the result is 1·pose + 0.1·bone, with
    the constants as the binary words both programs carry.

  One side of the comparison takes the bone term pair by pair — the sum over the 136 joints of half the sum over
  the two channels, divided by 136 — and `boneRowPairs_eq` says that is the same number: a division by a positive
  real is a product with a non-negative real, which distributes over ANY sum of extended reals, so no finiteness
  is needed. `sum_fin_mul` regroups a sum over `m·n` positions as `m` groups of `n` (blocks of four samples; pairs
  of channels).
-/
import Idealize.ShloMosaic.PureOps.Ideal
import Idealize.ShloMosaic.PureOps.Ideal.Laws
import Idealize.ShloMosaic.Lib.ValueIdx

noncomputable section

open scoped BigOperators

namespace Cert.LossSpec

open Idealize.ShloMosaic Idealize.ShloMosaic.ValueIdx

/-! ## Regrouping a sum; a non-negative real factor through a sum -/

/-- A sum over `N = m·n` positions is the sum over `m` groups of the sums over each group's `n` positions, the
    position of (i, j) being `n·i + j`. -/
theorem sum_fin_mul {M : Type*} [AddCommMonoid M] (m n N : ℕ) (h : m * n = N) (f : Fin N → M)
    (pos : Fin m → Fin n → Fin N) (hpos : ∀ i j, (pos i j).val = n * i.val + j.val) :
    ∑ i : Fin m, ∑ j : Fin n, f (pos i j) = ∑ k : Fin N, f k := by
  subst h
  rw [← Fintype.sum_prod_type']
  refine Fintype.sum_equiv finProdFinEquiv _ _ fun p => congrArg f (Fin.ext ?_)
  rw [hpos]
  simp only [finProdFinEquiv_apply_val]
  omega

/-- A non-negative real factor goes through any finite sum of extended reals. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert i s hi ih =>
    rw [Finset.sum_insert hi, Finset.sum_insert hi,
      EReal.right_distrib_of_nonneg_of_ne_top (EReal.coe_nonneg.mpr hr) (EReal.coe_ne_top r), ih]

/-! ## The constants, as the reals their words denote -/

def w274 : EReal := Ideal.ofBits .f32 0x43890000#32
def w272 : EReal := Ideal.ofBits .f32 0x43880000#32
def w136 : EReal := Ideal.ofBits .f32 0x43080000#32
def w2 : EReal := Ideal.ofBits .f32 0x40000000#32
def w1 : EReal := Ideal.ofBits .f32 0x3F800000#32
def wTenth : EReal := Ideal.ofBits .f32 0x3DCCCCCD#32

theorem w272_eq : w272 = ((272 : ℝ) : EReal) := by
  unfold w272; simp [Ideal.ofBits, Ideal.ieee, -EReal.coe_mul]; norm_num
theorem w136_eq : w136 = ((136 : ℝ) : EReal) := by
  unfold w136; simp [Ideal.ofBits, Ideal.ieee, -EReal.coe_mul]; norm_num
theorem w2_eq : w2 = ((2 : ℝ) : EReal) := by
  unfold w2; simp [Ideal.ofBits, Ideal.ieee, -EReal.coe_mul]; norm_num

/-! ## The loss -/

abbrev Arr3 : Type := (⟨3, ![128, 512, 274]⟩ : Shape).Idx → EReal
abbrev Msk : Type := (⟨2, ![128, 512]⟩ : Shape).Idx → EReal
abbrev PMsk : Type := (⟨2, ![128, 511]⟩ : Shape).Idx → EReal

/-- `|a[b,s,d] − tp[b,s+1,d]|`: the prediction at step `s` against the target one step on. -/
def absDiff (a tp : Arr3) (b : Fin 128) (s : Fin 511) (d : Fin 274) : EReal :=
  max (a (ix3 b (⟨s.val, by omega⟩ : Fin 512) d) - tp (ix3 b (⟨s.val + 1, by omega⟩ : Fin 512) d))
    (-(a (ix3 b (⟨s.val, by omega⟩ : Fin 512) d) - tp (ix3 b (⟨s.val + 1, by omega⟩ : Fin 512) d)))

/-- The pose term of (b, s): the mean absolute difference over the 274 coordinates. -/
def poseRow (a tp : Arr3) (b : Fin 128) (s : Fin 511) : EReal :=
  Ideal.div (∑ d : Fin 274, absDiff a tp b s d) w274

def poseNum (a tp : Arr3) (pm : PMsk) : EReal := ∑ b : Fin 128, ∑ s : Fin 511, poseRow a tp b s * pm (ix2 b s)
def poseDen (pm : PMsk) : EReal := ∑ b : Fin 128, ∑ s : Fin 511, pm (ix2 b s)

/-- The squared difference of the two bone vectors at coordinate `d` (the bone joins coordinates `d` and `d + 2`). -/
def boneSq (a tp : Arr3) (b : Fin 128) (s : Fin 512) (d : Fin 272) : EReal :=
  ((a (ix3 b s (⟨d.val + 2, by omega⟩ : Fin 274)) - a (ix3 b s (⟨d.val, by omega⟩ : Fin 274)))
      - (tp (ix3 b s (⟨d.val + 2, by omega⟩ : Fin 274)) - tp (ix3 b s (⟨d.val, by omega⟩ : Fin 274))))
    * ((a (ix3 b s (⟨d.val + 2, by omega⟩ : Fin 274)) - a (ix3 b s (⟨d.val, by omega⟩ : Fin 274)))
      - (tp (ix3 b s (⟨d.val + 2, by omega⟩ : Fin 274)) - tp (ix3 b s (⟨d.val, by omega⟩ : Fin 274))))

/-- The bone term of (b, s): the sum over the 272 coordinates, divided by 272. -/
def boneRow (a tp : Arr3) (b : Fin 128) (s : Fin 512) : EReal :=
  Ideal.div (∑ d : Fin 272, boneSq a tp b s d) w272

/-- The same taken pair by pair: over the 136 bones the half-sum over the two channels, divided by 136. -/
def boneRowPairs (a tp : Arr3) (b : Fin 128) (s : Fin 512) : EReal :=
  Ideal.div (∑ c : Fin 136, Ideal.div (∑ j : Fin 2, boneSq a tp b s (⟨2 * c.val + j.val, by omega⟩ : Fin 272)) w2) w136

theorem boneRowPairs_eq (a tp : Arr3) (b : Fin 128) (s : Fin 512) : boneRowPairs a tp b s = boneRow a tp b s := by
  unfold boneRowPairs boneRow
  rw [w2_eq, w136_eq, w272_eq, Ideal.div_coe (by norm_num : (136 : ℝ) ≠ 0), Ideal.div_coe (by norm_num : (272 : ℝ) ≠ 0)]
  simp only [Ideal.div_coe (by norm_num : (2 : ℝ) ≠ 0)]
  rw [← sum_mul_coe _ _ _ (by norm_num), mul_assoc, ← EReal.coe_mul,
    sum_fin_mul 136 2 272 (by norm_num) (fun d => boneSq a tp b s d)
      (fun c j => (⟨2 * c.val + j.val, by omega⟩ : Fin 272)) (fun _ _ => rfl)]
  norm_num

def boneNum (a tp : Arr3) (mk : Msk) : EReal := ∑ b : Fin 128, ∑ s : Fin 512, boneRow a tp b s * mk (ix2 b s)
def boneDen (mk : Msk) : EReal := ∑ b : Fin 128, ∑ s : Fin 512, mk (ix2 b s)

def pose (a tp : Arr3) (pm : PMsk) : EReal := Ideal.div (poseNum a tp pm) (poseDen pm)
def bone (a tp : Arr3) (mk : Msk) : EReal := Ideal.div (boneNum a tp mk) (boneDen mk)
def total (a tp : Arr3) (mk : Msk) (pm : PMsk) : EReal := w1 * pose a tp pm + wTenth * bone a tp mk

end Cert.LossSpec

end
-- ==== Proof.KPayload.lean ====
/-
  What one grid point stores, read as numbers.

  The body loads four blocks — four samples of the predictions `x0` and of the relaid targets `x1` [4, 512, 274], and
  the two 0/1 masks as columns `x2` [4, 512, 1], `x3` [4, 511, 1] — and stores an [1, 8, 128] block whose row 0 holds,
  in lanes 0 … 3, four partial sums over the block's samples and time steps; every other entry is zero:

    lane 0:  Σ_bb Σ_{s<511} (Σ_{d<274} |x0[bb,s,d] − x1[bb,s+1,d]|) / 274 · x3[bb,s]
    lane 1:  Σ_bb Σ_{s<511} x3[bb,s]
    lane 2:  Σ_bb Σ_{s<512} (Σ_{d<272} ((x0[bb,s,d+2] − x0[bb,s,d]) − (x1[bb,s,d+2] − x1[bb,s,d]))²) / 272 · x2[bb,s]
    lane 3:  Σ_bb Σ_{s<512} x2[bb,s]

  Each lane is read through the two concatenations that assemble the row, the unit-axis casts that the keep-dims
  sums leave, and the one-axis add-reductions, each of which is the plain finite sum over that axis at the exact
  instance; the order in which the body takes its sums (lanes, then time steps, then the four samples) is kept.
-/
import proofs.«104244_j2130303779193_2_alg».proof.Proof.Gen.KernelIdeal.Frame
import proofs.«104244_j2130303779193_2_alg».proof.Proof.LossSpec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.KValue

open Cert.KernelIdeal Cert.KernelIdeal.Gen Idealize.ShloMosaic Idealize.ShloMosaic.ValueIdx

/-! ## Casts that add or drop a trailing unit axis, slices along the last axis, one-axis sums -/

section Layout
variable {α : Type}

/-- An `[a]` array cast to the column `[a, 1]` reads, at `(i, u)`, the operand at `i`. -/
theorem cast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, b, 1]` array cast to `[a, b]` reads, at `(i, j)`, the operand at `(i, j, 0)`. -/
theorem cast_ab1_ab {a b : ℕ} (x : (⟨3, ![a, b, 1]⟩ : Shape).Idx → α) (h : (⟨3, ![a, b, 1]⟩ : Shape).ShapeCasts ⟨2, ![a, b]⟩)
    (i : Fin a) (j : Fin b) : shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- A slice along the LAST axis of a rank-3 array, from offset `o`, reads at `(i, j, e)` the operand at `(i, j, o + e)`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (i : Fin n0) (j : Fin n1) (e : Fin m) (k : Fin n2) (hk : k.val = o + e.val) :
    extractStridedSlice ⟨3, ![n0, n1, m]⟩ ![0, 0, o] X h (ix3 i j e) = X (ix3 i j k) :=
  extractStridedSlice_apply _ _ _ _ _ (fun ax => by
    match ax with
    | ⟨0, _⟩ => show i.val = 0 + i.val; omega
    | ⟨1, _⟩ => show j.val = 0 + j.val; omega
    | ⟨2, _⟩ => show k.val = o + e.val; exact hk)

end Layout

section Sums

/-- The add-reduction of a rank-3 vector over its last axis is, at `(i, j)`, the sum over that axis. -/
theorem mred3_last {a b n : ℕ} (v : FVec Ideal ⟨3, ![a, b, n]⟩ .f32)
    (h : (⟨3, ![a, b, n]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ v 0x00000000#32 h hφ hacc (ix2 i j) = ∑ d : Fin n, v (ix3 i j d) :=
  (Ideal.multiReduction_add_single v _ h hφ hacc (ix2 i j)).trans
    (Finset.sum_congr rfl fun d _ => congrArg v (funext fun ax =>
      match ax with | ⟨0, _⟩ => rfl | ⟨1, _⟩ => rfl | ⟨2, _⟩ => rfl))

/-- The add-reduction of a rank-2 vector over its last axis is, at `i`, the sum over that axis. -/
theorem mred2_last {a n : ℕ} (v : FVec Ideal ⟨2, ![a, n]⟩ .f32)
    (h : (⟨2, ![a, n]⟩ : Shape).Reduces [1] ⟨1, ![a]⟩) (hφ : FKind.Formats .f32)
    (hacc : (0x00000000#32 : BitVec 32) = FKind.add.neutral .f32 hφ) (i : Fin a) :
    multiReduction .add [1] ⟨1, ![a]⟩ v 0x00000000#32 h hφ hacc (ix1 i) = ∑ s : Fin n, v (ix2 i s) :=
  (Ideal.multiReduction_add_single v _ h hφ hacc (ix1 i)).trans
    (Finset.sum_congr rfl fun d _ => congrArg v (funext fun ax =>
      match ax with | ⟨0, _⟩ => rfl | ⟨1, _⟩ => rfl))

/-- The add-reduction of a column `[a, 1]` over its first axis is, at its one index, the sum down the column. -/
theorem mred2_first {a : ℕ} (v : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ v 0x00000000#32 h hφ hacc (ix1 u) = ∑ k : Fin a, v (ix2 k u) :=
  (Ideal.multiReduction_add_single v _ h hφ hacc (ix1 u)).trans
    (Finset.sum_congr rfl fun d _ => congrArg v (funext fun ax =>
      match ax with | ⟨0, _⟩ => rfl | ⟨1, _⟩ => rfl))

end Sums

/-! ## The four partial sums of one block -/

/-- Lane 0: the block's masked pose numerator. -/
def blkPoseNum (x0 x1 : Vec Ideal S4x512x274 .f32) (x3 : Vec Ideal S4x511x1 .f32) : EReal :=
  ∑ bb : Fin 4, ∑ s : Fin 511,
    Ideal.div (∑ d : Fin 274,
        max (x0 (ix3 bb (⟨s.val, by omega⟩ : Fin 512) d) - x1 (ix3 bb (⟨s.val + 1, by omega⟩ : Fin 512) d))
          (-(x0 (ix3 bb (⟨s.val, by omega⟩ : Fin 512) d) - x1 (ix3 bb (⟨s.val + 1, by omega⟩ : Fin 512) d))))
      LossSpec.w274
    * x3 (ix3 bb s (0 : Fin 1))

/-- Lane 1: the block's pose weight. -/
def blkPoseDen (x3 : Vec Ideal S4x511x1 .f32) : EReal := ∑ bb : Fin 4, ∑ s : Fin 511, x3 (ix3 bb s (0 : Fin 1))

/-- Lane 2: the block's masked bone numerator. -/
def blkBoneNum (x0 x1 : Vec Ideal S4x512x274 .f32) (x2 : Vec Ideal S4x512x1 .f32) : EReal :=
  ∑ bb : Fin 4, ∑ s : Fin 512,
    Ideal.div (∑ d : Fin 272,
        ((x0 (ix3 bb s (⟨d.val + 2, by omega⟩ : Fin 274)) - x0 (ix3 bb s (⟨d.val, by omega⟩ : Fin 274)))
            - (x1 (ix3 bb s (⟨d.val + 2, by omega⟩ : Fin 274)) - x1 (ix3 bb s (⟨d.val, by omega⟩ : Fin 274))))
          * ((x0 (ix3 bb s (⟨d.val + 2, by omega⟩ : Fin 274)) - x0 (ix3 bb s (⟨d.val, by omega⟩ : Fin 274)))
            - (x1 (ix3 bb s (⟨d.val + 2, by omega⟩ : Fin 274)) - x1 (ix3 bb s (⟨d.val, by omega⟩ : Fin 274)))))
      LossSpec.w272
    * x2 (ix3 bb s (0 : Fin 1))

/-- Lane 3: the block's bone weight. -/
def blkBoneDen (x2 : Vec Ideal S4x512x1 .f32) : EReal := ∑ bb : Fin 4, ∑ s : Fin 512, x2 (ix3 bb s (0 : Fin 1))

theorem hz3 : (![0, 0, 0] : Fin 3 → Nat) = fun _ => 0 := funext fun a => by fin_cases a <;> rfl

/-- The body's identity cast of the second block. -/
theorem pay2_eq (x1 : Vec Ideal S4x512x274 .f32) : k0_pay2 x1 = x1 := by
  unfold k0_pay2; exact shapeCast_self _ _

/-- The time-step mask as the body sees it: the column block with its unit axis dropped. -/
theorem pay3_apply (x2 : Vec Ideal S4x512x1 .f32) (bb : Fin 4) (s : Fin 512) :
    k0_pay3 x2 (ix2 bb s) = x2 (ix3 bb s (0 : Fin 1)) := by
  unfold k0_pay3; exact cast_ab1_ab _ _ bb s

theorem pay4_apply (x3 : Vec Ideal S4x511x1 .f32) (bb : Fin 4) (s : Fin 511) :
    k0_pay4 x3 (ix2 bb s) = x3 (ix3 bb s (0 : Fin 1)) := by
  unfold k0_pay4; exact cast_ab1_ab _ _ bb s

/-- The masked mean-absolute-difference total of the block, as the body computes it. -/
theorem pay5_eq (x0 x1 : Vec Ideal S4x512x274 .f32) (x3 : Vec Ideal S4x511x1 .f32) :
    k0_pay5 x0 x1 x3 (ix2 (0 : Fin 1) (0 : Fin 1)) = blkPoseNum x0 x1 x3 := by
  unfold k0_pay5 blkPoseNum
  rw [pay2_eq]
  refine (shapeCast_a_1a_apply _ _ 0 0).trans ?_
  refine (mred2_first _ _ _ _ 0).trans (Finset.sum_congr rfl fun bb _ => ?_)
  refine (cast_a_a1 _ _ bb 0).trans ?_
  refine (mred2_last _ _ _ _ bb).trans (Finset.sum_congr rfl fun s _ => ?_)
  refine (mulf_apply _ _ _).trans (congrArg₂ (· * ·) ?_ (pay4_apply x3 bb s))
  refine (divf_apply _ _ _).trans (congrArg₂ Ideal.div ?_ rfl)
  refine (mred3_last _ _ _ _ bb s).trans (Finset.sum_congr rfl fun d _ => ?_)
  have e7 := slice3_axis1_apply 0 x0 slices_S4x512x274_o0_0_0_S4x511x274 bb s d (⟨s.val, by omega⟩ : Fin 512) (by simp)
  have e8 := slice3_axis1_apply 1 x1 slices_S4x512x274_o0_1_0_S4x511x274 bb s d (⟨s.val + 1, by omega⟩ : Fin 512)
    (by simp; omega)
  show max (extractStridedSlice _ _ x0 _ (ix3 bb s d) - extractStridedSlice _ _ x1 _ (ix3 bb s d))
      (-(extractStridedSlice _ _ x0 _ (ix3 bb s d) - extractStridedSlice _ _ x1 _ (ix3 bb s d))) = _
  rw [e7, e8]

/-- The block's pose weight, as the body computes it. -/
theorem pay6_eq (x3 : Vec Ideal S4x511x1 .f32) :
    k0_pay6 x3 (ix2 (0 : Fin 1) (0 : Fin 1)) = blkPoseDen x3 := by
  unfold k0_pay6 blkPoseDen
  refine (shapeCast_a_1a_apply _ _ 0 0).trans ?_
  refine (mred2_first _ _ _ _ 0).trans (Finset.sum_congr rfl fun bb _ => ?_)
  refine (cast_a_a1 _ _ bb 0).trans ?_
  exact (mred2_last _ _ _ _ bb).trans (Finset.sum_congr rfl fun s _ => pay4_apply x3 bb s)

/-- The per-sample masked bone totals of the block (a column of four), as the body computes them. -/
theorem pay7_apply (x0 x1 : Vec Ideal S4x512x274 .f32) (x2 : Vec Ideal S4x512x1 .f32) (bb : Fin 4) (u : Fin 1) :
    k0_pay7 x0 x1 x2 (ix2 bb u) = ∑ s : Fin 512,
      Ideal.div (∑ d : Fin 272,
          ((x0 (ix3 bb s (⟨d.val + 2, by omega⟩ : Fin 274)) - x0 (ix3 bb s (⟨d.val, by omega⟩ : Fin 274)))
              - (x1 (ix3 bb s (⟨d.val + 2, by omega⟩ : Fin 274)) - x1 (ix3 bb s (⟨d.val, by omega⟩ : Fin 274))))
            * ((x0 (ix3 bb s (⟨d.val + 2, by omega⟩ : Fin 274)) - x0 (ix3 bb s (⟨d.val, by omega⟩ : Fin 274)))
              - (x1 (ix3 bb s (⟨d.val + 2, by omega⟩ : Fin 274)) - x1 (ix3 bb s (⟨d.val, by omega⟩ : Fin 274)))))
        LossSpec.w272
      * x2 (ix3 bb s (0 : Fin 1)) := by
  unfold k0_pay7
  rw [pay2_eq]
  refine (cast_a_a1 _ _ bb u).trans ?_
  refine (mred2_last _ _ _ _ bb).trans (Finset.sum_congr rfl fun s _ => ?_)
  refine (mulf_apply _ _ _).trans (congrArg₂ (· * ·) ?_ (pay3_apply x2 bb s))
  refine (divf_apply _ _ _).trans (congrArg₂ Ideal.div ?_ rfl)
  refine (mred3_last _ _ _ _ bb s).trans (Finset.sum_congr rfl fun d _ => ?_)
  have a2 := slice3_axis2_apply 2 x0 slices_S4x512x274_o0_0_2_S4x512x272 bb s d (⟨d.val + 2, by omega⟩ : Fin 274)
    (by simp; omega)
  have a0 := slice3_axis2_apply 0 x0 slices_S4x512x274_o0_0_0_S4x512x272 bb s d (⟨d.val, by omega⟩ : Fin 274) (by simp)
  have t2 := slice3_axis2_apply 2 x1 slices_S4x512x274_o0_0_2_S4x512x272 bb s d (⟨d.val + 2, by omega⟩ : Fin 274)
    (by simp; omega)
  have t0 := slice3_axis2_apply 0 x1 slices_S4x512x274_o0_0_0_S4x512x272 bb s d (⟨d.val, by omega⟩ : Fin 274) (by simp)
  show ((extractStridedSlice _ _ x0 _ (ix3 bb s d) - extractStridedSlice _ _ x0 _ (ix3 bb s d))
        - (extractStridedSlice _ _ x1 _ (ix3 bb s d) - extractStridedSlice _ _ x1 _ (ix3 bb s d)))
      * ((extractStridedSlice _ _ x0 _ (ix3 bb s d) - extractStridedSlice _ _ x0 _ (ix3 bb s d))
        - (extractStridedSlice _ _ x1 _ (ix3 bb s d) - extractStridedSlice _ _ x1 _ (ix3 bb s d))) = _
  rw [a2, a0, t2, t0]

/-! ## The stored block's row 0, lane by lane -/

/-- Reading lane `k` (`k` < 4) of row 0 of the stored block picks piece `k` of the row's concatenation. -/
theorem lane_pick (p0 p1 p2 p3 : FVec Ideal S1x1 .f32) (z : FVec Ideal S1x124 .f32) (z7 : FVec Ideal S7x128 .f32)
    (k : Nat) (hk : k < 4) (pk : FVec Ideal S1x1 .f32)
    (hpk : ([⟨S1x1, p0⟩, ⟨S1x1, p1⟩, ⟨S1x1, p2⟩, ⟨S1x1, p3⟩, ⟨S1x124, z⟩] : List ((s : Shape) × (s.Idx → Ideal .f32)))[k]'(by simp; omega)
      = ⟨S1x1, pk⟩) :
    shapeCast S1x8x128
        (concatenate S8x128 0
          [⟨S1x128, concatenate S1x128 1 [⟨S1x1, p0⟩, ⟨S1x1, p1⟩, ⟨S1x1, p2⟩, ⟨S1x1, p3⟩, ⟨S1x124, z⟩]
              concatenates_S1x1_S1x1_S1x1_S1x1_S1x124_S1x128_d1⟩,
            ⟨S7x128, z7⟩]
          concatenates_S1x128_S7x128_S8x128_d0)
        shapeCasts_S8x128_S1x8x128 (ix3 (0 : Fin 1) (0 : Fin 8) (⟨k, by omega⟩ : Fin 128))
      = pk (ix2 (0 : Fin 1) (0 : Fin 1)) := by
  refine (shapeCast_ab_1ab_apply _ _ 0 0 _).trans ?_
  refine (concatenate_pair_apply_left (t := S8x128) (s₁ := S1x128) (s₂ := S7x128) 0 _ _ _ (ix2 (0 : Fin 8) (⟨k, by omega⟩ : Fin 128)) rfl
    (ix2 (0 : Fin 1) (⟨k, by omega⟩ : Fin 128)) (fun b => match b with | ⟨0, _⟩ => rfl | ⟨1, _⟩ => rfl)).trans ?_
  refine concatenate_apply_piece (t := S1x128) 1 _ _ (ix2 (0 : Fin 1) (⟨k, by omega⟩ : Fin 128)) k (by simp; omega) S1x1 pk hpk rfl k ?_
    (ix2 (0 : Fin 1) (0 : Fin 1)) (fun b hb => match b, hb with | ⟨0, _⟩, _ => rfl | ⟨1, _⟩, hb => absurd rfl hb) (by simp)
  interval_cases k <;> rfl

/-- The stored block, opened: the one store covers the buffer, the loads read the blocks whole. -/
theorem out0_4_eq (x0 x1 : Vec Ideal S4x512x274 .f32) (x2 : Vec Ideal S4x512x1 .f32) (x3 : Vec Ideal S4x511x1 .f32) :
    out0_4 x0 x1 x2 x3 = k0_pay1 (k0_pay3 x2) (k0_pay5 x0 x1 x3) (k0_pay6 x3) (k0_pay7 x0 x1 x2) := by
  unfold out0_4
  rw [View.canon_unit_zero hz3]
  simp only [View.ld_unit_zero (S := S4x512x274) hz3, View.ld_unit_zero (S := S4x512x1) hz3,
    View.ld_unit_zero (S := S4x511x1) hz3]

/-- Lane 0 of row 0 of the stored block: the block's masked pose numerator. -/
theorem out_lane0 (x0 x1 : Vec Ideal S4x512x274 .f32) (x2 : Vec Ideal S4x512x1 .f32) (x3 : Vec Ideal S4x511x1 .f32) :
    out0_4 x0 x1 x2 x3 (ix3 (0 : Fin 1) (0 : Fin 8) (⟨0, by omega⟩ : Fin 128)) = blkPoseNum x0 x1 x3 := by
  rw [out0_4_eq]; unfold k0_pay1
  exact (lane_pick _ _ _ _ _ _ 0 (by omega) _ rfl).trans (pay5_eq x0 x1 x3)

/-- Lane 1: the block's pose weight. -/
theorem out_lane1 (x0 x1 : Vec Ideal S4x512x274 .f32) (x2 : Vec Ideal S4x512x1 .f32) (x3 : Vec Ideal S4x511x1 .f32) :
    out0_4 x0 x1 x2 x3 (ix3 (0 : Fin 1) (0 : Fin 8) (⟨1, by omega⟩ : Fin 128)) = blkPoseDen x3 := by
  rw [out0_4_eq]; unfold k0_pay1
  exact (lane_pick _ _ _ _ _ _ 1 (by omega) _ rfl).trans (pay6_eq x3)

/-- Lane 2: the block's masked bone numerator (the four samples' totals added). -/
theorem out_lane2 (x0 x1 : Vec Ideal S4x512x274 .f32) (x2 : Vec Ideal S4x512x1 .f32) (x3 : Vec Ideal S4x511x1 .f32) :
    out0_4 x0 x1 x2 x3 (ix3 (0 : Fin 1) (0 : Fin 8) (⟨2, by omega⟩ : Fin 128)) = blkBoneNum x0 x1 x2 := by
  rw [out0_4_eq]; unfold k0_pay1 blkBoneNum
  refine (lane_pick _ _ _ _ _ _ 2 (by omega) _ rfl).trans ?_
  refine (shapeCast_a_1a_apply _ _ 0 0).trans ?_
  exact (mred2_first _ _ _ _ 0).trans (Finset.sum_congr rfl fun bb _ => pay7_apply x0 x1 x2 bb 0)

/-- Lane 3: the block's bone weight. -/
theorem out_lane3 (x0 x1 : Vec Ideal S4x512x274 .f32) (x2 : Vec Ideal S4x512x1 .f32) (x3 : Vec Ideal S4x511x1 .f32) :
    out0_4 x0 x1 x2 x3 (ix3 (0 : Fin 1) (0 : Fin 8) (⟨3, by omega⟩ : Fin 128)) = blkBoneDen x2 := by
  rw [out0_4_eq]; unfold k0_pay1 blkBoneDen
  refine (lane_pick _ _ _ _ _ _ 3 (by omega) _ rfl).trans ?_
  refine (shapeCast_a_1a_apply _ _ 0 0).trans ?_
  refine (mred2_first _ _ _ _ 0).trans (Finset.sum_congr rfl fun bb _ => ?_)
  refine (cast_a_a1 _ _ bb 0).trans ?_
  exact (mred2_last _ _ _ _ bb).trans (Finset.sum_congr rfl fun s _ => pay3_apply x2 bb s)

end Cert.KernelIdeal.KValue

end
-- ==== Proof.KBlocks.lean ====
/-
  From what each grid point stores to the whole [32, 8, 128] array of partial sums.

  Grid point `t` (of 32) is handed samples `4t … 4t+3` of each of the four input arrays — the block index maps all
  send `t` to block `(t, 0, 0)` — and writes block `(t, 0, 0)` of the output, one [1, 8, 128] block per point. So
  after the 32 points the output holds, at `(t, r, l)`, entry `(0, r, l)` of what the body stores from the `t`-th
  blocks of the inputs: the blocks are disjoint and fill the array.
-/
import proofs.«104244_j2130303779193_2_alg».proof.Proof.KPayload

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Samples `4t … 4t+3` of a [128, r, n] array. -/
def blk3 {r n : ℕ} (X : (⟨3, ![128, r, n]⟩ : Shape).Idx → EReal) (t : Fin 32) : (⟨3, ![4, r, n]⟩ : Shape).Idx → EReal :=
  fun y => X (ix3 (⟨4 * t.val + (y 0).val, by have h : (y 0).val < 4 := (y 0).isLt; omega⟩ : Fin 128)
    (⟨(y 1).val, (y 1).isLt⟩ : Fin r) (⟨(y 2).val, (y 2).isLt⟩ : Fin n))

theorem blk3_apply {r n : ℕ} (X : (⟨3, ![128, r, n]⟩ : Shape).Idx → EReal) (t : Fin 32) (bb : Fin 4) (s : Fin r) (d : Fin n) :
    blk3 X t (ix3 bb s d) = X (ix3 (⟨4 * t.val + bb.val, by omega⟩ : Fin 128) s d) := rfl

/-- The output array the 32 points leave, as one function of the four input arrays. -/
def outArr (X0 X1 : (⟨3, ![128, 512, 274]⟩ : Shape).Idx → EReal) (X2 : (⟨3, ![128, 512, 1]⟩ : Shape).Idx → EReal)
    (X3 : (⟨3, ![128, 511, 1]⟩ : Shape).Idx → EReal) : (⟨3, ![32, 8, 128]⟩ : Shape).Idx → EReal :=
  fun i => out0_4 (F := Ideal) (blk3 X0 ⟨(i 0).val, (i 0).isLt⟩) (blk3 X1 ⟨(i 0).val, (i 0).isLt⟩)
    (blk3 X2 ⟨(i 0).val, (i 0).isLt⟩) (blk3 X3 ⟨(i 0).val, (i 0).isLt⟩)
    (ix3 (0 : Fin 1) (⟨(i 1).val, (i 1).isLt⟩ : Fin 8) (⟨(i 2).val, (i 2).isLt⟩ : Fin 128))

theorem outArr_apply (X0 X1 : (⟨3, ![128, 512, 274]⟩ : Shape).Idx → EReal) (X2 : (⟨3, ![128, 512, 1]⟩ : Shape).Idx → EReal)
    (X3 : (⟨3, ![128, 511, 1]⟩ : Shape).Idx → EReal) (i : (⟨3, ![32, 8, 128]⟩ : Shape).Idx) (n : Fin 32)
    (y : (⟨3, ![1, 8, 128]⟩ : Shape).Idx) (hn : n.val = (i 0).val) (h1 : (y 1).val = (i 1).val) (h2 : (y 2).val = (i 2).val) :
    outArr X0 X1 X2 X3 i = out0_4 (F := Ideal) (blk3 X0 n) (blk3 X1 n) (blk3 X2 n) (blk3 X3 n) y := by
  unfold outArr
  have e1 : (⟨(i 0).val, (i 0).isLt⟩ : Fin 32) = n := Fin.ext hn.symm
  have e2 : ix3 (0 : Fin 1) (⟨(i 1).val, (i 1).isLt⟩ : Fin 8) (⟨(i 2).val, (i 2).isLt⟩ : Fin 128) = y := by
    funext a
    match a with
    | ⟨0, _⟩ => exact Fin.ext (by have h : (y 0).val < 1 := (y 0).isLt; show 0 = (y 0).val; omega)
    | ⟨1, _⟩ => exact Fin.ext h1.symm
    | ⟨2, _⟩ => exact Fin.ext h2.symm
  rw [e1, e2]

/-- The printed index maps over the grid: every window's block index at point `t` is `(t, 0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

theorem tlt (t : Fin cfg0.N) : t.val < 32 := Nat.lt_of_lt_of_eq t.isLt N_0

/-- Input window 0's block at point `t` is samples `4t … 4t+3` of the predictions. -/
theorem iblk0_eq (c : Dev nD) (t : Fin cfg0.N) :
    (iblk m c 0 t : Vec Ideal S4x512x274 .f32) = blk3 (V m c main_arg0) ⟨t.val, tlt t⟩ := by
  obtain ⟨⟨e0, e1, e2⟩, -⟩ := idx_facts t
  funext y
  show V m c main_arg0 (((cfg0.win 0).blk t).view.emb y) = V m c main_arg0 _
  refine congrArg _ (funext fun a => Fin.ext ?_)
  match a with
  | ⟨0, _⟩ => show win0_0.index t (0 : Fin 3) * 4 + 1 * (y 0).val = 4 * t.val + (y 0).val; omega
  | ⟨1, _⟩ => show win0_0.index t (1 : Fin 3) * 512 + 1 * (y 1).val = (y 1).val; omega
  | ⟨2, _⟩ => show win0_0.index t (2 : Fin 3) * 274 + 1 * (y 2).val = (y 2).val; omega

theorem iblk1_eq (c : Dev nD) (t : Fin cfg0.N) :
    (iblk m c 1 t : Vec Ideal S4x512x274 .f32) = blk3 (V m c main_v1) ⟨t.val, tlt t⟩ := by
  obtain ⟨-, ⟨e0, e1, e2⟩, -⟩ := idx_facts t
  funext y
  show V m c main_v1 (((cfg0.win 1).blk t).view.emb y) = V m c main_v1 _
  refine congrArg _ (funext fun a => Fin.ext ?_)
  match a with
  | ⟨0, _⟩ => show win0_1.index t (0 : Fin 3) * 4 + 1 * (y 0).val = 4 * t.val + (y 0).val; omega
  | ⟨1, _⟩ => show win0_1.index t (1 : Fin 3) * 512 + 1 * (y 1).val = (y 1).val; omega
  | ⟨2, _⟩ => show win0_1.index t (2 : Fin 3) * 274 + 1 * (y 2).val = (y 2).val; omega

theorem iblk2_eq (c : Dev nD) (t : Fin cfg0.N) :
    (iblk m c 2 t : Vec Ideal S4x512x1 .f32) = blk3 (V m c main_v9) ⟨t.val, tlt t⟩ := by
  obtain ⟨-, -, ⟨e0, e1, e2⟩, -⟩ := idx_facts t
  funext y
  show V m c main_v9 (((cfg0.win 2).blk t).view.emb y) = V m c main_v9 _
  refine congrArg _ (funext fun a => Fin.ext ?_)
  match a with
  | ⟨0, _⟩ => show win0_2.index t (0 : Fin 3) * 4 + 1 * (y 0).val = 4 * t.val + (y 0).val; omega
  | ⟨1, _⟩ => show win0_2.index t (1 : Fin 3) * 512 + 1 * (y 1).val = (y 1).val; omega
  | ⟨2, _⟩ => show win0_2.index t (2 : Fin 3) * 1 + 1 * (y 2).val = (y 2).val; omega

theorem iblk3_eq (c : Dev nD) (t : Fin cfg0.N) :
    (iblk m c 3 t : Vec Ideal S4x511x1 .f32) = blk3 (V m c main_v19) ⟨t.val, tlt t⟩ := by
  obtain ⟨-, -, -, ⟨e0, e1, e2⟩, -⟩ := idx_facts t
  funext y
  show V m c main_v19 (((cfg0.win 3).blk t).view.emb y) = V m c main_v19 _
  refine congrArg _ (funext fun a => Fin.ext ?_)
  match a with
  | ⟨0, _⟩ => show win0_3.index t (0 : Fin 3) * 4 + 1 * (y 0).val = 4 * t.val + (y 0).val; omega
  | ⟨1, _⟩ => show win0_3.index t (1 : Fin 3) * 511 + 1 * (y 1).val = (y 1).val; omega
  | ⟨2, _⟩ => show win0_3.index t (2 : Fin 3) * 1 + 1 * (y 2).val = (y 2).val; omega

/-- What point `t` writes back is block `t` of `outArr` of the four arrays as the region finds them. -/
theorem flushed4_eq (c : Dev nD) (t : Fin cfg0.N) :
    (dats m 0 c).flushed 4 t = ((cfg0.win 4).blk t).view.read (Elt Ideal)
      (outArr (V m c main_arg0) (V m c main_v1) (V m c main_v9) (V m c main_v19)) := by
  show (cfg0.win 4).cut (grid0.coords t) ((dats m 0 c).after 4 t) = _
  rw [after0_4]
  obtain ⟨-, -, -, -, ⟨e0, e1, e2⟩⟩ := idx_facts t
  funext j
  rw [iblk0_eq, iblk1_eq, iblk2_eq, iblk3_eq]
  rw [View.read_apply]
  refine Eq.trans ?_ (cast_eq rfl _).symm
  have hj0 : (j 0).val < 1 := Nat.lt_of_lt_of_le (j 0).isLt ((cfg0.win 4).xsize_le (grid0.coords t) 0)
  refine (outArr_apply (V m c main_arg0) (V m c main_v1) (V m c main_v9) (V m c main_v19)
    (((cfg0.win 4).blk t).view.emb j) ⟨t.val, tlt t⟩ ((cfg0.win 4).xinj (grid0.coords t) j) ?_ ?_ ?_).symm
  · show t.val = win0_4.index t (0 : Fin 3) * 1 + 1 * (j 0).val; omega
  · show (j 1).val = win0_4.index t (1 : Fin 3) * 8 + 1 * (j 1).val; omega
  · show (j 2).val = win0_4.index t (2 : Fin 3) * 128 + 1 * (j 2).val; omega

/-- An index of the output is in point `t`'s block iff each coordinate is in the block's range on its axis. -/
theorem mem_blk4 (t : Fin cfg0.N) (i : S32x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v20).slice (win0_4.rect t)).set ↔ _
  rw [View.set_slice_whole, Rect.mem_set_unit]
  exact Iff.rfl

/-- Every index of the output is in the block of the point its first coordinate names. -/
theorem cover4 (i : S32x8x128.Idx) : ∃ t : Fin cfg0.N, (cfg0.win 4).flush t = true ∧ i ∈ ((cfg0.win 4).blk t).view.set := by
  have hi0 : (i 0).val < 32 := (i 0).isLt
  have hi1 : (i 1).val < 8 := (i 1).isLt
  have hi2 : (i 2).val < 128 := (i 2).isLt
  let t : Fin cfg0.N := ⟨(i 0).val, by rw [show cfg0.N = 32 from N_0]; exact hi0⟩
  obtain ⟨-, -, -, -, ⟨e0, e1, e2⟩⟩ := idx_facts t
  have ht : t.val = (i 0).val := rfl
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 8 ≤ (i 1).val ∧ (i 1).val < win0_4.index t (1 : Fin 3) * 8 + 8; omega
  | ⟨2, _⟩ => show win0_4.index t (2 : Fin 3) * 128 ≤ (i 2).val ∧ (i 2).val < win0_4.index t (2 : Fin 3) * 128 + 128; omega

/-- The output array after the 32 points. -/
theorem final4 (c : Dev nD) :
    (dats m 0 c).arrAt 4 cfg0.N = outArr (V m c main_arg0) (V m c main_v1) (V m c main_v9) (V m c main_v19) :=
  (dats m 0 c).arrAt_eq_of_cover 4 _ (fun t _ => flushed4_eq m c t) cover4

end Cert.KernelIdeal.KValue

end
-- ==== Proof.KTail.lean ====
/-
  The host operations around the region.

  Before it, the program relays the targets (`tpOf`: transpose to [128, 512, 137, 2], then read row-major as
  [128, 512, 274]) and computes the two 0/1 masks (`maskOf`, `pmaskOf`: step counter below the length, resp. below the
  length less one), each then given a trailing unit axis; the predictions go in as they are. After it, from the
  [32, 8, 128] array of partial sums, lane `k` of row 0 is summed over the 32 blocks (`laneTotal`), the two losses are
  the quotients of lanes 0 / 1 and 2 / 3, and the total is 1·pose + 0.1·bone.
-/
import proofs.«104244_j2130303779193_2_alg».proof.Proof.Gen.KernelIdeal.Frame
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.StableHlo

variable {F : FTy → Type} [FloatOps F]

/-! ## Before the region -/

/-- The target poses relaid: [128, 2, 512, 137] transposed to [128, 512, 137, 2], then read row-major as [128, 512, 274]. -/
def tpOf (a1 : (⟨S128x2x512x137, .f32⟩ : BufTy).Contents (Elt F)) : (⟨S128x512x274, .f32⟩ : BufTy).Contents (Elt F) :=
  shapeCast S128x512x274
    (((transpose S128x512x137x2 [0, 2, 3, 1] · transposes_S128x2x512x137_S128x512x137x2_0_2_3_1) : (⟨S128x2x512x137, .f32⟩ : BufTy).Contents (Elt F) → (⟨S128x512x137x2, .f32⟩ : BufTy).Contents (Elt F)) a1)
    shapeCasts_S128x512x137x2_S128x512x274

/-- The mask over [128, 512]: 1.0 where the step counter is (signed) below the sample's length, else 0.0. -/
def maskOf (a2 : (⟨S128, .i32⟩ : BufTy).Contents (Elt F)) : (⟨S128x512, .f32⟩ : BufTy).Contents (Elt F) :=
  (uitofp .f32 : (⟨S128x512, .i1⟩ : BufTy).Contents (Elt F) → (⟨S128x512, .f32⟩ : BufTy).Contents (Elt F))
    ((cmpi .slt : (⟨S128x512, .i32⟩ : BufTy).Contents (Elt F) → (⟨S128x512, .i32⟩ : BufTy).Contents (Elt F) → (⟨S128x512, .i1⟩ : BufTy).Contents (Elt F))
      ((broadcastInDim S128x512 ![0, 1] bcast_S1x512_S128x512_0_1 : (⟨S1x512, .i32⟩ : BufTy).Contents (Elt F) → (⟨S128x512, .i32⟩ : BufTy).Contents (Elt F))
        ((broadcastInDim S1x512 ![1] bcast_S512_S1x512_1 : (⟨S512, .i32⟩ : BufTy).Contents (Elt F) → (⟨S1x512, .i32⟩ : BufTy).Contents (Elt F)) (iotaInDim S512 32 0)))
      ((broadcastInDim S128x512 ![0, 1] bcast_S128x1_S128x512_0_1 : (⟨S128x1, .i32⟩ : BufTy).Contents (Elt F) → (⟨S128x512, .i32⟩ : BufTy).Contents (Elt F))
        ((broadcastInDim S128x1 ![0] bcast_S128_S128x1_0 : (⟨S128, .i32⟩ : BufTy).Contents (Elt F) → (⟨S128x1, .i32⟩ : BufTy).Contents (Elt F)) a2)))

/-- The mask over [128, 511]: 1.0 where the step counter is (signed) below the sample's length less one, else 0.0. -/
def pmaskOf (a2 : (⟨S128, .i32⟩ : BufTy).Contents (Elt F)) : (⟨S128x511, .f32⟩ : BufTy).Contents (Elt F) :=
  (uitofp .f32 : (⟨S128x511, .i1⟩ : BufTy).Contents (Elt F) → (⟨S128x511, .f32⟩ : BufTy).Contents (Elt F))
    ((cmpi .slt : (⟨S128x511, .i32⟩ : BufTy).Contents (Elt F) → (⟨S128x511, .i32⟩ : BufTy).Contents (Elt F) → (⟨S128x511, .i1⟩ : BufTy).Contents (Elt F))
      ((broadcastInDim S128x511 ![0, 1] bcast_S1x511_S128x511_0_1 : (⟨S1x511, .i32⟩ : BufTy).Contents (Elt F) → (⟨S128x511, .i32⟩ : BufTy).Contents (Elt F))
        ((broadcastInDim S1x511 ![1] bcast_S511_S1x511_1 : (⟨S511, .i32⟩ : BufTy).Contents (Elt F) → (⟨S1x511, .i32⟩ : BufTy).Contents (Elt F))
          (((extractStridedSlice S511 ![0] · slices_S512_S511_0) : (⟨S512, .i32⟩ : BufTy).Contents (Elt F) → (⟨S511, .i32⟩ : BufTy).Contents (Elt F)) (iotaInDim S512 32 0))))
      ((broadcastInDim S128x511 ![0, 1] bcast_S128x1_S128x511_0_1 : (⟨S128x1, .i32⟩ : BufTy).Contents (Elt F) → (⟨S128x511, .i32⟩ : BufTy).Contents (Elt F))
        ((broadcastInDim S128x1 ![0] bcast_S128_S128x1_0 : (⟨S128, .i32⟩ : BufTy).Contents (Elt F) → (⟨S128x1, .i32⟩ : BufTy).Contents (Elt F))
          ((subi : (⟨S128, .i32⟩ : BufTy).Contents (Elt F) → (⟨S128, .i32⟩ : BufTy).Contents (Elt F) → (⟨S128, .i32⟩ : BufTy).Contents (Elt F)) a2
            ((broadcastInDim S128 ![] bcast_S_S128 : (⟨S_, .i32⟩ : BufTy).Contents (Elt F) → (⟨S128, .i32⟩ : BufTy).Contents (Elt F)) (constantI S_ 32 1#32))))))

variable (m : (ℓ : Loc nD τ sig) → Buf (Elt F) ℓ)

/-- The region finds the relaid targets in window 1's array. -/
theorem V_v1 (c : Dev nD) : V m c main_v1 = tpOf (m ((c : Thread nD τ).loc main_arg1)) := by
  show StableHlo.after hostOps0 (fun b => m (c, b)) (Proc.devRef .tc main_v1) = _
  after_results
  rfl

/-- It finds the time-step mask, with a trailing unit axis, in window 2's array. -/
theorem V_v9 (c : Dev nD) : V m c main_v9
    = (broadcastInDim S128x512x1 ![0, 1] bcast_S128x512_S128x512x1_0_1 : (⟨S128x512, .f32⟩ : BufTy).Contents (Elt F) → (⟨S128x512x1, .f32⟩ : BufTy).Contents (Elt F))
        (maskOf (m ((c : Thread nD τ).loc main_arg2))) := by
  show StableHlo.after hostOps0 (fun b => m (c, b)) (Proc.devRef .tc main_v9) = _
  after_results
  rfl

/-- And the pose mask, with a trailing unit axis, in window 3's array. -/
theorem V_v19 (c : Dev nD) : V m c main_v19
    = (broadcastInDim S128x511x1 ![0, 1] bcast_S128x511_S128x511x1_0_1 : (⟨S128x511, .f32⟩ : BufTy).Contents (Elt F) → (⟨S128x511x1, .f32⟩ : BufTy).Contents (Elt F))
        (pmaskOf (m ((c : Thread nD τ).loc main_arg2))) := by
  show StableHlo.after hostOps0 (fun b => m (c, b)) (Proc.devRef .tc main_v19) = _
  after_results
  rfl

/-! ## After the region -/

/-- Lane `k` of row 0 of the partial sums, added over the 32 blocks (from zero). -/
def laneTotal (off : Fin 3 → Nat) (h : S32x8x128.Slices off S32x1x1)
    (A : (⟨S32x8x128, .f32⟩ : BufTy).Contents (Elt F)) : (⟨S_, .f32⟩ : BufTy).Contents (Elt F) :=
  ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F))
    (shapeCast S32 (extractStridedSlice S32x1x1 off A h) shapeCasts_S32x1x1_S32) (constant S_ .f32 0x00000000#32)

/-- The pose loss from the partial sums. -/
def poseK (A : (⟨S32x8x128, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F))
    (laneTotal ![0, 0, 0] slices_S32x8x128_S32x1x1_0_0_0 A) (laneTotal ![0, 0, 1] slices_S32x8x128_S32x1x1_0_0_1 A)

/-- The bone loss from the partial sums. -/
def boneK (A : (⟨S32x8x128, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F))
    (laneTotal ![0, 0, 2] slices_S32x8x128_S32x1x1_0_0_2 A) (laneTotal ![0, 0, 3] slices_S32x8x128_S32x1x1_0_0_3 A)

/-- The total: 1·pose + 0.1·bone, the weights as their words. -/
def totalK (A : (⟨S32x8x128, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F))
    ((mulf : (⟨S_, .f32⟩ : BufTy).Contents (Elt F) → (⟨S_, .f32⟩ : BufTy).Contents (Elt F) → (⟨S_, .f32⟩ : BufTy).Contents (Elt F))
      (constant S_ .f32 0x3F800000#32) (poseK A))
    ((mulf : (⟨S_, .f32⟩ : BufTy).Contents (Elt F) → (⟨S_, .f32⟩ : BufTy).Contents (Elt F) → (⟨S_, .f32⟩ : BufTy).Contents (Elt F))
      (constant S_ .f32 0x3DCCCCCD#32) (boneK A))

set_option maxHeartbeats 4000000 in
/-- The three results after the lines that follow the region, from any contents `W`: functions of the output array. -/
theorem tail_v33 (W : Valuation τ sig (Elt F)) :
    StableHlo.after hostOps1 W (Proc.devRef .tc main_v33) = poseK (W (Proc.devRef .tc main_v20)) := by
  after_results_simp <;> rfl
set_option maxHeartbeats 4000000 in
theorem tail_v34 (W : Valuation τ sig (Elt F)) :
    StableHlo.after hostOps1 W (Proc.devRef .tc main_v34) = boneK (W (Proc.devRef .tc main_v20)) := by
  after_results_simp <;> rfl
set_option maxHeartbeats 4000000 in
theorem tail_v37 (W : Valuation τ sig (Elt F)) :
    StableHlo.after hostOps1 W (Proc.devRef .tc main_v37) = totalK (W (Proc.devRef .tc main_v20)) := by
  after_results_simp <;> rfl

end Cert.KernelIdeal.KValue

end
-- ==== Proof.KSum.lean ====
/-
  The three results as numbers.

  Lane `k` of row 0 of the partial sums, added over the 32 blocks from zero, is `0 + Σ_t out[t, 0, k]`; entry
  `out[t, 0, k]` is lane `k` of what point `t` stores from samples `4t … 4t+3`; and a sum over 32 blocks of a sum
  over a block's 4 samples is the sum over the 128 samples. So the four lane totals are the specification's pose
  numerator and weight and bone numerator and weight, with the masks read as the columns the region was handed, and
  the quotients and the weighted total follow.
-/
import proofs.«104244_j2130303779193_2_alg».proof.Proof.KBlocks
import proofs.«104244_j2130303779193_2_alg».proof.Proof.KTail
import Idealize.ShloMosaic.Lib.IdealHost

noncomputable section

open scoped BigOperators

namespace Cert.KernelIdeal.KValue

open Cert.KernelIdeal Cert.KernelIdeal.Gen Idealize.ShloMosaic Idealize.ShloMosaic.ValueIdx

/-- A rank-1 index set is its one coordinate's range … -/
def idxEquiv1 {n : ℕ} : (⟨1, ![n]⟩ : Shape).Idx ≃ Fin n where
  toFun i := i 0
  invFun t := ix1 t
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ t : Fin n, f (ix1 t) := by
  rw [← Equiv.sum_comp (idxEquiv1 (n := n)).symm f]
  rfl

/-- Lane `kn` of row 0, added over the 32 blocks from the zero word. -/
theorem laneTotal_apply (kn : ℕ) (hk : kn < 128) (h : S32x8x128.Slices ![0, 0, kn] S32x1x1)
    (A : FVec Ideal S32x8x128 .f32) (j : S_.Idx) :
    laneTotal (F := Ideal) ![0, 0, kn] h A j = 0 + ∑ t : Fin 32, A (ix3 t (0 : Fin 8) (⟨kn, hk⟩ : Fin 128)) := by
  unfold laneTotal
  refine (hostReduceAdd_apply _ _ _ _ j).trans ?_
  refine (Ideal.hostReduceAdd_total reducesTo_S32_S_d0 (fun b => b.elim0) _ _ j).trans ?_
  refine congrArg₂ (· + ·) Ideal.ofBits_zero_f32 ((sum_idx1 _).trans (Finset.sum_congr rfl fun t _ => ?_))
  refine (shapeCast_apply _ _ _ (ix3 (t : Fin 32) (0 : Fin 1) (0 : Fin 1)) ?_).trans ?_
  · rw [Shape.rowMajor_val_three, Shape.rowMajor_val_one]
    show (t.val * 1 + 0) * 1 + 0 = t.val
    omega
  · exact extractStridedSlice_apply _ A h _ (ix3 (t : Fin 32) (0 : Fin 8) (⟨kn, hk⟩ : Fin 128)) (fun a => by
      match a with
      | ⟨0, _⟩ => show t.val = 0 + t.val; omega
      | ⟨1, _⟩ => show 0 = 0 + 0; omega
      | ⟨2, _⟩ => show kn = kn + 0; omega)

/-- A mask handed over as a column [128, r, 1], read as the [128, r] mask it is. -/
def colOf {r : ℕ} (X : (⟨3, ![128, r, 1]⟩ : Shape).Idx → EReal) : (⟨2, ![128, r]⟩ : Shape).Idx → EReal :=
  fun i => X (ix3 (⟨(i 0).val, (i 0).isLt⟩ : Fin 128) (⟨(i 1).val, (i 1).isLt⟩ : Fin r) (0 : Fin 1))

/-- A [128, r] array given a trailing unit axis and read back as a column is itself. -/
theorem colOf_broadcast {r : ℕ} (mk : (⟨2, ![128, r]⟩ : Shape).Idx → EReal)
    (h : (⟨2, ![128, r]⟩ : Shape).BroadcastsInDim ⟨3, ![128, r, 1]⟩ ![0, 1]) :
    colOf (broadcastInDim ⟨3, ![128, r, 1]⟩ ![0, 1] h mk) = mk := by
  funext i
  unfold colOf
  refine broadcastInDim_apply _ h mk _ i (fun a => ?_)
  match a with
  | ⟨0, _⟩ => rfl
  | ⟨1, _⟩ =>
    have hi : (i 1).val < r := (i 1).isLt
    show (i 1).val = if r = 1 then 0 else (i 1).val
    split
    · omega
    · rfl

variable (X0 X1 : LossSpec.Arr3) (X2 : (⟨3, ![128, 512, 1]⟩ : Shape).Idx → EReal)
  (X3 : (⟨3, ![128, 511, 1]⟩ : Shape).Idx → EReal)

theorem lane0_total : ∑ t : Fin 32, outArr X0 X1 X2 X3 (ix3 t (0 : Fin 8) (⟨0, by omega⟩ : Fin 128))
    = LossSpec.poseNum X0 X1 (colOf X3) := by
  unfold LossSpec.poseNum
  rw [← LossSpec.sum_fin_mul 32 4 128 (by norm_num)
    (fun b => ∑ s : Fin 511, LossSpec.poseRow X0 X1 b s * colOf X3 (ix2 b s))
    (fun t bb => (⟨4 * t.val + bb.val, by omega⟩ : Fin 128)) (fun _ _ => rfl)]
  refine Finset.sum_congr rfl fun t _ => ?_
  refine (outArr_apply X0 X1 X2 X3 _ t (ix3 (0 : Fin 1) (0 : Fin 8) (⟨0, by omega⟩ : Fin 128)) rfl rfl rfl).trans ?_
  refine (out_lane0 _ _ _ _).trans ?_
  rfl

theorem lane1_total : ∑ t : Fin 32, outArr X0 X1 X2 X3 (ix3 t (0 : Fin 8) (⟨1, by omega⟩ : Fin 128))
    = LossSpec.poseDen (colOf X3) := by
  unfold LossSpec.poseDen
  rw [← LossSpec.sum_fin_mul 32 4 128 (by norm_num)
    (fun b => ∑ s : Fin 511, colOf X3 (ix2 b s))
    (fun t bb => (⟨4 * t.val + bb.val, by omega⟩ : Fin 128)) (fun _ _ => rfl)]
  refine Finset.sum_congr rfl fun t _ => ?_
  refine (outArr_apply X0 X1 X2 X3 _ t (ix3 (0 : Fin 1) (0 : Fin 8) (⟨1, by omega⟩ : Fin 128)) rfl rfl rfl).trans ?_
  refine (out_lane1 _ _ _ _).trans ?_
  rfl

theorem lane2_total : ∑ t : Fin 32, outArr X0 X1 X2 X3 (ix3 t (0 : Fin 8) (⟨2, by omega⟩ : Fin 128))
    = LossSpec.boneNum X0 X1 (colOf X2) := by
  unfold LossSpec.boneNum
  rw [← LossSpec.sum_fin_mul 32 4 128 (by norm_num)
    (fun b => ∑ s : Fin 512, LossSpec.boneRow X0 X1 b s * colOf X2 (ix2 b s))
    (fun t bb => (⟨4 * t.val + bb.val, by omega⟩ : Fin 128)) (fun _ _ => rfl)]
  refine Finset.sum_congr rfl fun t _ => ?_
  refine (outArr_apply X0 X1 X2 X3 _ t (ix3 (0 : Fin 1) (0 : Fin 8) (⟨2, by omega⟩ : Fin 128)) rfl rfl rfl).trans ?_
  refine (out_lane2 _ _ _ _).trans ?_
  rfl

theorem lane3_total : ∑ t : Fin 32, outArr X0 X1 X2 X3 (ix3 t (0 : Fin 8) (⟨3, by omega⟩ : Fin 128))
    = LossSpec.boneDen (colOf X2) := by
  unfold LossSpec.boneDen
  rw [← LossSpec.sum_fin_mul 32 4 128 (by norm_num)
    (fun b => ∑ s : Fin 512, colOf X2 (ix2 b s))
    (fun t bb => (⟨4 * t.val + bb.val, by omega⟩ : Fin 128)) (fun _ _ => rfl)]
  refine Finset.sum_congr rfl fun t _ => ?_
  refine (outArr_apply X0 X1 X2 X3 _ t (ix3 (0 : Fin 1) (0 : Fin 8) (⟨3, by omega⟩ : Fin 128)) rfl rfl rfl).trans ?_
  refine (out_lane3 _ _ _ _).trans ?_
  rfl

/-- The pose loss the program returns, from the output array the 32 points leave. -/
theorem poseK_out : poseK (F := Ideal) (outArr X0 X1 X2 X3) = fun _ => LossSpec.pose X0 X1 (colOf X3) := by
  funext j
  unfold poseK LossSpec.pose
  refine (hostDivf_apply _ _ j).trans ?_
  rw [laneTotal_apply 0 (by omega), laneTotal_apply 1 (by omega), zero_add, zero_add, lane0_total, lane1_total]

/-- The bone loss likewise. -/
theorem boneK_out : boneK (F := Ideal) (outArr X0 X1 X2 X3) = fun _ => LossSpec.bone X0 X1 (colOf X2) := by
  funext j
  unfold boneK LossSpec.bone
  refine (hostDivf_apply _ _ j).trans ?_
  rw [laneTotal_apply 2 (by omega), laneTotal_apply 3 (by omega), zero_add, zero_add, lane2_total, lane3_total]

/-- And the total. -/
theorem totalK_out : totalK (F := Ideal) (outArr X0 X1 X2 X3)
    = fun _ => LossSpec.total X0 X1 (colOf X2) (colOf X3) := by
  funext j
  unfold totalK LossSpec.total LossSpec.w1 LossSpec.wTenth
  show Ideal.ofBits .f32 0x3F800000#32 * poseK (F := Ideal) (outArr X0 X1 X2 X3) j
      + Ideal.ofBits .f32 0x3DCCCCCD#32 * boneK (F := Ideal) (outArr X0 X1 X2 X3) j = _
  rw [poseK_out, boneK_out]

end Cert.KernelIdeal.KValue

end
-- ==== Proof.KValue.lean ====
/-
  The idealized kernel program's run, read as the specification.

  After the lines that follow the region, the three result buffers hold the total, the pose loss and the bone
  loss of `LossSpec` at the predictions as launched, the targets relaid by the program's own host operations
  (`tpOf`) and the two masks those operations compute from the lengths (`maskOf`, `pmaskOf`); the three argument
  arrays end as launched.
-/
import proofs.«104244_j2130303779193_2_alg».proof.Proof.KSum

noncomputable section

namespace Cert.KernelIdeal.KValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The array of partial sums after the region, from the arguments. -/
theorem final4_args (c : Dev nD) : (dats m 0 c).arrAt 4 cfg0.N
    = outArr (m ((c : Thread nD τ).loc main_arg0)) (tpOf (m ((c : Thread nD τ).loc main_arg1)))
        ((broadcastInDim S128x512x1 ![0, 1] bcast_S128x512_S128x512x1_0_1 : (⟨S128x512, .f32⟩ : BufTy).Contents (Elt Ideal) → (⟨S128x512x1, .f32⟩ : BufTy).Contents (Elt Ideal))
          (maskOf (m ((c : Thread nD τ).loc main_arg2))))
        ((broadcastInDim S128x511x1 ![0, 1] bcast_S128x511_S128x511x1_0_1 : (⟨S128x511, .f32⟩ : BufTy).Contents (Elt Ideal) → (⟨S128x511x1, .f32⟩ : BufTy).Contents (Elt Ideal))
          (pmaskOf (m ((c : Thread nD τ).loc main_arg2)))) := by
  rw [final4, V_main_arg0, V_v1, V_v9, V_v19]

/-- What the lines after the region read in the output window's array: the partial sums. -/
theorem tail_reads (c : Dev nD) :
    Pipeline.withArrays (cfgs 0).spec c (V0 m c) (fun w => (dats m 0 c).arrAt w (cfgs 0).N) (Proc.devRef .tc main_v20)
      = (dats m 0 c).arrAt 4 cfg0.N :=
  Pipeline.withArrays_arr spec0 launch0.win.arr_inj c _ _ 4

theorem tail_total (c : Dev nD) : Pipeline.afterTail₀ cfgs (dats m) 0 (V0 m) [hostOps1] c main_v37
    = fun _ => LossSpec.total (m ((c : Thread nD τ).loc main_arg0)) (tpOf (m ((c : Thread nD τ).loc main_arg1)))
        (maskOf (m ((c : Thread nD τ).loc main_arg2))) (pmaskOf (m ((c : Thread nD τ).loc main_arg2))) := by
  unfold Pipeline.afterTail₀
  show StableHlo.after hostOps1 _ (Proc.devRef .tc main_v37) = _
  rw [tail_v37, tail_reads, final4_args, totalK_out, colOf_broadcast, colOf_broadcast]
  rfl

theorem tail_pose (c : Dev nD) : Pipeline.afterTail₀ cfgs (dats m) 0 (V0 m) [hostOps1] c main_v33
    = fun _ => LossSpec.pose (m ((c : Thread nD τ).loc main_arg0)) (tpOf (m ((c : Thread nD τ).loc main_arg1)))
        (pmaskOf (m ((c : Thread nD τ).loc main_arg2))) := by
  unfold Pipeline.afterTail₀
  show StableHlo.after hostOps1 _ (Proc.devRef .tc main_v33) = _
  rw [tail_v33, tail_reads, final4_args, poseK_out, colOf_broadcast]
  rfl

theorem tail_bone (c : Dev nD) : Pipeline.afterTail₀ cfgs (dats m) 0 (V0 m) [hostOps1] c main_v34
    = fun _ => LossSpec.bone (m ((c : Thread nD τ).loc main_arg0)) (tpOf (m ((c : Thread nD τ).loc main_arg1)))
        (maskOf (m ((c : Thread nD τ).loc main_arg2))) := by
  unfold Pipeline.afterTail₀
  show StableHlo.after hostOps1 _ (Proc.devRef .tc main_v34) = _
  rw [tail_v34, tail_reads, final4_args, boneK_out, colOf_broadcast]
  rfl

/-- Every weakly fair execution of the idealized kernel program terminates with the three results at the
    specification's values and the arguments unchanged. -/
theorem run_spec : θ_run (defs (F := Ideal)) (onTc (τ := τ) (main (F := Ideal))) ⟨m, fun _ => 0, ρ⟩ fun r => ∀ c : Dev nD,
      r.2.mem ((c.tc : Thread nD τ).loc main_v37)
        = (fun _ => LossSpec.total (m ((c.tc : Thread nD τ).loc main_arg0)) (tpOf (m ((c.tc : Thread nD τ).loc main_arg1)))
            (maskOf (m ((c.tc : Thread nD τ).loc main_arg2))) (pmaskOf (m ((c.tc : Thread nD τ).loc main_arg2))))
      ∧ r.2.mem ((c.tc : Thread nD τ).loc main_v33)
        = (fun _ => LossSpec.pose (m ((c.tc : Thread nD τ).loc main_arg0)) (tpOf (m ((c.tc : Thread nD τ).loc main_arg1)))
            (pmaskOf (m ((c.tc : Thread nD τ).loc main_arg2))))
      ∧ r.2.mem ((c.tc : Thread nD τ).loc main_v34)
        = (fun _ => LossSpec.bone (m ((c.tc : Thread nD τ).loc main_arg0)) (tpOf (m ((c.tc : Thread nD τ).loc main_arg1)))
            (maskOf (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v37 (Pipeline.mem_restRefs_of main_v37 (by decide) (by decide))).trans (tail_total m c),
      ((h c).2 main_v33 (Pipeline.mem_restRefs_of main_v33 (by decide) (by decide))).trans (tail_pose m c),
      ((h c).2 main_v34 (Pipeline.mem_restRefs_of main_v34 (by decide) (by decide))).trans (tail_bone m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefOps.lean ====
/-
  The reference program's @main, window by window, as literal lists of its host operations, and for each list the
  fact that every operation touches TensorCore references only. Nothing is argued here: the lists are the printed
  program's own lines.
-/
import proofs.«104244_j2130303779193_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0, in order (60 of them). -/
abbrev ops0 : List (HloOp τ sig (Elt F)) :=
  [ StableHlo.nullary main_c (fun i => lit0 (S136.rowMajor i)),
    StableHlo.nullary main_c_0 (fun i => lit1 (S136.rowMajor i)),
    StableHlo.unary main_arg1 main_v0 ((transpose S128x512x137x2 [0, 2, 3, 1] · transposes_S128x2x512x137_S128x512x137x2_0_2_3_1) : (⟨S128x2x512x137, .f32⟩ : BufTy).Contents (Elt F) → (⟨S128x512x137x2, .f32⟩ : BufTy).Contents (Elt F)),
    StableHlo.reshape main_v0 main_v1 rfl shapeCasts_S128x512x137x2_S128x512x274,
    StableHlo.nullary main_v2 (iotaInDim S512 32 0),
    StableHlo.unary main_v2 main_v3 (broadcastInDim S1x512 ![1] bcast_S512_S1x512_1 : (⟨S512, .i32⟩ : BufTy).Contents (Elt F) → (⟨S1x512, .i32⟩ : BufTy).Contents (Elt F)),
    StableHlo.unary main_arg2 main_v4 (broadcastInDim S128x1 ![0] bcast_S128_S128x1_0 : (⟨S128, .i32⟩ : BufTy).Contents (Elt F) → (⟨S128x1, .i32⟩ : BufTy).Contents (Elt F)),
    StableHlo.unary main_v3 main_v5 (broadcastInDim S128x512 ![0, 1] bcast_S1x512_S128x512_0_1 : (⟨S1x512, .i32⟩ : BufTy).Contents (Elt F) → (⟨S128x512, .i32⟩ : BufTy).Contents (Elt F)),
    StableHlo.unary main_v4 main_v6 (broadcastInDim S128x512 ![0, 1] bcast_S128x1_S128x512_0_1 : (⟨S128x1, .i32⟩ : BufTy).Contents (Elt F) → (⟨S128x512, .i32⟩ : BufTy).Contents (Elt F)),
    StableHlo.binary main_v5 main_v6 main_v7 (cmpi .slt : (⟨S128x512, .i32⟩ : BufTy).Contents (Elt F) → (⟨S128x512, .i32⟩ : BufTy).Contents (Elt F) → (⟨S128x512, .i1⟩ : BufTy).Contents (Elt F)),
    StableHlo.unary main_v7 main_v8 (uitofp .f32 : (⟨S128x512, .i1⟩ : BufTy).Contents (Elt F) → (⟨S128x512, .f32⟩ : BufTy).Contents (Elt F)),
    StableHlo.unary main_v2 main_v9 ((extractStridedSlice S511 ![0] · slices_S512_S511_0) : (⟨S512, .i32⟩ : BufTy).Contents (Elt F) → (⟨S511, .i32⟩ : BufTy).Contents (Elt F)),
    StableHlo.unary main_v9 main_v10 (broadcastInDim S1x511 ![1] bcast_S511_S1x511_1 : (⟨S511, .i32⟩ : BufTy).Contents (Elt F) → (⟨S1x511, .i32⟩ : BufTy).Contents (Elt F)),
    StableHlo.nullary main_c_1 (constantI S_ 32 1#32),
    StableHlo.unary main_c_1 main_v11 (broadcastInDim S128 ![] bcast_S_S128 : (⟨S_, .i32⟩ : BufTy).Contents (Elt F) → (⟨S128, .i32⟩ : BufTy).Contents (Elt F)),
    StableHlo.binary main_arg2 main_v11 main_v12 (subi : (⟨S128, .i32⟩ : BufTy).Contents (Elt F) → (⟨S128, .i32⟩ : BufTy).Contents (Elt F) → (⟨S128, .i32⟩ : BufTy).Contents (Elt F)),
    StableHlo.unary main_v12 main_v13 (broadcastInDim S128x1 ![0] bcast_S128_S128x1_0 : (⟨S128, .i32⟩ : BufTy).Contents (Elt F) → (⟨S128x1, .i32⟩ : BufTy).Contents (Elt F)),
    StableHlo.unary main_v10 main_v14 (broadcastInDim S128x511 ![0, 1] bcast_S1x511_S128x511_0_1 : (⟨S1x511, .i32⟩ : BufTy).Contents (Elt F) → (⟨S128x511, .i32⟩ : BufTy).Contents (Elt F)),
    StableHlo.unary main_v13 main_v15 (broadcastInDim S128x511 ![0, 1] bcast_S128x1_S128x511_0_1 : (⟨S128x1, .i32⟩ : BufTy).Contents (Elt F) → (⟨S128x511, .i32⟩ : BufTy).Contents (Elt F)),
    StableHlo.binary main_v14 main_v15 main_v16 (cmpi .slt : (⟨S128x511, .i32⟩ : BufTy).Contents (Elt F) → (⟨S128x511, .i32⟩ : BufTy).Contents (Elt F) → (⟨S128x511, .i1⟩ : BufTy).Contents (Elt F)),
    StableHlo.unary main_v16 main_v17 (uitofp .f32 : (⟨S128x511, .i1⟩ : BufTy).Contents (Elt F) → (⟨S128x511, .f32⟩ : BufTy).Contents (Elt F)),
    StableHlo.unary main_arg0 main_v18 ((extractStridedSlice S128x511x274 ![0, 0, 0] · slices_S128x512x274_S128x511x274_0_0_0) : (⟨S128x512x274, .f32⟩ : BufTy).Contents (Elt F) → (⟨S128x511x274, .f32⟩ : BufTy).Contents (Elt F)),
    StableHlo.unary main_v1 main_v19 ((extractStridedSlice S128x511x274 ![0, 1, 0] · slices_S128x512x274_S128x511x274_0_1_0) : (⟨S128x512x274, .f32⟩ : BufTy).Contents (Elt F) → (⟨S128x511x274, .f32⟩ : BufTy).Contents (Elt F)),
    StableHlo.binary main_v18 main_v19 main_v20 (subf : (⟨S128x511x274, .f32⟩ : BufTy).Contents (Elt F) → (⟨S128x511x274, .f32⟩ : BufTy).Contents (Elt F) → (⟨S128x511x274, .f32⟩ : BufTy).Contents (Elt F)),
    StableHlo.unary main_v20 main_v21 (Host.absf : (⟨S128x511x274, .f32⟩ : BufTy).Contents (Elt F) → (⟨S128x511x274, .f32⟩ : BufTy).Contents (Elt F)),
    StableHlo.nullary main_cst (constant S_ .f32 0x00000000#32),
    StableHlo.binary main_v21 main_cst main_v22 ((fun x v => Host.reduceAdd x v reducesTo_S128x511x274_S128x511_d2 h_S_) : (⟨S128x511x274, .f32⟩ : BufTy).Contents (Elt F) → (⟨S_, .f32⟩ : BufTy).Contents (Elt F) → (⟨S128x511, .f32⟩ : BufTy).Contents (Elt F)),
    StableHlo.nullary main_cst_2 (constant S_ .f32 0x43890000#32),
    StableHlo.unary main_cst_2 main_v23 (broadcastInDim S128x511 ![] bcast_S_S128x511 : (⟨S_, .f32⟩ : BufTy).Contents (Elt F) → (⟨S128x511, .f32⟩ : BufTy).Contents (Elt F)),
    StableHlo.binary main_v22 main_v23 main_v24 (Host.divf : (⟨S128x511, .f32⟩ : BufTy).Contents (Elt F) → (⟨S128x511, .f32⟩ : BufTy).Contents (Elt F) → (⟨S128x511, .f32⟩ : BufTy).Contents (Elt F)),
    StableHlo.binary main_v24 main_v17 main_v25 (mulf : (⟨S128x511, .f32⟩ : BufTy).Contents (Elt F) → (⟨S128x511, .f32⟩ : BufTy).Contents (Elt F) → (⟨S128x511, .f32⟩ : BufTy).Contents (Elt F)),
    StableHlo.nullary main_cst_3 (constant S_ .f32 0x00000000#32),
    StableHlo.binary main_v25 main_cst_3 main_v26 ((fun x v => Host.reduceAdd x v reducesTo_S128x511_S_d0_1 h_S_) : (⟨S128x511, .f32⟩ : BufTy).Contents (Elt F) → (⟨S_, .f32⟩ : BufTy).Contents (Elt F) → (⟨S_, .f32⟩ : BufTy).Contents (Elt F)),
    StableHlo.nullary main_cst_4 (constant S_ .f32 0x00000000#32),
    StableHlo.binary main_v17 main_cst_4 main_v27 ((fun x v => Host.reduceAdd x v reducesTo_S128x511_S_d0_1 h_S_) : (⟨S128x511, .f32⟩ : BufTy).Contents (Elt F) → (⟨S_, .f32⟩ : BufTy).Contents (Elt F) → (⟨S_, .f32⟩ : BufTy).Contents (Elt F)),
    StableHlo.binary main_v26 main_v27 main_v28 (Host.divf : (⟨S_, .f32⟩ : BufTy).Contents (Elt F) → (⟨S_, .f32⟩ : BufTy).Contents (Elt F) → (⟨S_, .f32⟩ : BufTy).Contents (Elt F)),
    StableHlo.reshape main_arg0 main_v29 rfl shapeCasts_S128x512x274_S128x512x137x2,
    StableHlo.reshape main_v1 main_v30 rfl shapeCasts_S128x512x274_S128x512x137x2,
    StableHlo.nullary main_c_5 (constantI S_ 32 0#32),
    StableHlo.unary main_c_5 main_v31 (broadcastInDim S136 ![] bcast_S_S136 : (⟨S_, .i32⟩ : BufTy).Contents (Elt F) → (⟨S136, .i32⟩ : BufTy).Contents (Elt F)),
    StableHlo.binary main_c main_v31 main_v32 (cmpi .slt : (⟨S136, .i32⟩ : BufTy).Contents (Elt F) → (⟨S136, .i32⟩ : BufTy).Contents (Elt F) → (⟨S136, .i1⟩ : BufTy).Contents (Elt F)),
    StableHlo.nullary main_c_6 (constantI S_ 32 137#32),
    StableHlo.unary main_c_6 main_v33 (broadcastInDim S136 ![] bcast_S_S136 : (⟨S_, .i32⟩ : BufTy).Contents (Elt F) → (⟨S136, .i32⟩ : BufTy).Contents (Elt F)),
    StableHlo.binary main_c main_v33 main_v34 (addi : (⟨S136, .i32⟩ : BufTy).Contents (Elt F) → (⟨S136, .i32⟩ : BufTy).Contents (Elt F) → (⟨S136, .i32⟩ : BufTy).Contents (Elt F)),
    StableHlo.ternary main_v32 main_v34 main_c main_v35 (select : (⟨S136, .i1⟩ : BufTy).Contents (Elt F) → (⟨S136, .i32⟩ : BufTy).Contents (Elt F) → (⟨S136, .i32⟩ : BufTy).Contents (Elt F) → (⟨S136, .i32⟩ : BufTy).Contents (Elt F)),
    StableHlo.unary main_v35 main_v36 (broadcastInDim S136x1 ![0] bcast_S136_S136x1_0 : (⟨S136, .i32⟩ : BufTy).Contents (Elt F) → (⟨S136x1, .i32⟩ : BufTy).Contents (Elt F)),
    StableHlo.binary main_v29 main_v36 main_v37 ((fun x i => Host.gather gather_S128x512x137x2_S136x1_S128x512x136x2_013_2_n_n_2_1_12851212 x i) : (⟨S128x512x137x2, .f32⟩ : BufTy).Contents (Elt F) → (⟨S136x1, .i32⟩ : BufTy).Contents (Elt F) → (⟨S128x512x136x2, .f32⟩ : BufTy).Contents (Elt F)),
    StableHlo.nullary main_c_7 (constantI S_ 32 0#32),
    StableHlo.unary main_c_7 main_v38 (broadcastInDim S136 ![] bcast_S_S136 : (⟨S_, .i32⟩ : BufTy).Contents (Elt F) → (⟨S136, .i32⟩ : BufTy).Contents (Elt F)),
    StableHlo.binary main_c_0 main_v38 main_v39 (cmpi .slt : (⟨S136, .i32⟩ : BufTy).Contents (Elt F) → (⟨S136, .i32⟩ : BufTy).Contents (Elt F) → (⟨S136, .i1⟩ : BufTy).Contents (Elt F)),
    StableHlo.nullary main_c_8 (constantI S_ 32 137#32),
    StableHlo.unary main_c_8 main_v40 (broadcastInDim S136 ![] bcast_S_S136 : (⟨S_, .i32⟩ : BufTy).Contents (Elt F) → (⟨S136, .i32⟩ : BufTy).Contents (Elt F)),
    StableHlo.binary main_c_0 main_v40 main_v41 (addi : (⟨S136, .i32⟩ : BufTy).Contents (Elt F) → (⟨S136, .i32⟩ : BufTy).Contents (Elt F) → (⟨S136, .i32⟩ : BufTy).Contents (Elt F)),
    StableHlo.ternary main_v39 main_v41 main_c_0 main_v42 (select : (⟨S136, .i1⟩ : BufTy).Contents (Elt F) → (⟨S136, .i32⟩ : BufTy).Contents (Elt F) → (⟨S136, .i32⟩ : BufTy).Contents (Elt F) → (⟨S136, .i32⟩ : BufTy).Contents (Elt F)),
    StableHlo.unary main_v42 main_v43 (broadcastInDim S136x1 ![0] bcast_S136_S136x1_0 : (⟨S136, .i32⟩ : BufTy).Contents (Elt F) → (⟨S136x1, .i32⟩ : BufTy).Contents (Elt F)),
    StableHlo.binary main_v29 main_v43 main_v44 ((fun x i => Host.gather gather_S128x512x137x2_S136x1_S128x512x136x2_013_2_n_n_2_1_12851212 x i) : (⟨S128x512x137x2, .f32⟩ : BufTy).Contents (Elt F) → (⟨S136x1, .i32⟩ : BufTy).Contents (Elt F) → (⟨S128x512x136x2, .f32⟩ : BufTy).Contents (Elt F)),
    StableHlo.binary main_v37 main_v44 main_v45 (subf : (⟨S128x512x136x2, .f32⟩ : BufTy).Contents (Elt F) → (⟨S128x512x136x2, .f32⟩ : BufTy).Contents (Elt F) → (⟨S128x512x136x2, .f32⟩ : BufTy).Contents (Elt F)),
    StableHlo.nullary main_c_9 (constantI S_ 32 0#32),
    StableHlo.unary main_c_9 main_v46 (broadcastInDim S136 ![] bcast_S_S136 : (⟨S_, .i32⟩ : BufTy).Contents (Elt F) → (⟨S136, .i32⟩ : BufTy).Contents (Elt F)),
    StableHlo.binary main_c main_v46 main_v47 (cmpi .slt : (⟨S136, .i32⟩ : BufTy).Contents (Elt F) → (⟨S136, .i32⟩ : BufTy).Contents (Elt F) → (⟨S136, .i1⟩ : BufTy).Contents (Elt F)) ]

set_option maxRecDepth 8192 in
theorem ops0_sub : (ops0 : List (HloOp τ sig (Elt F))).Forall fun op => op.bufs ⊆ tcRefs τ sig :=
  ⟨nullary_bufs_sub .., nullary_bufs_sub .., unary_bufs_sub .., reshape_bufs_sub .., nullary_bufs_sub .., unary_bufs_sub .., unary_bufs_sub .., unary_bufs_sub .., unary_bufs_sub .., binary_bufs_sub .., unary_bufs_sub .., unary_bufs_sub .., unary_bufs_sub .., nullary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., nullary_bufs_sub .., binary_bufs_sub .., nullary_bufs_sub .., unary_bufs_sub .., binary_bufs_sub .., binary_bufs_sub .., nullary_bufs_sub .., binary_bufs_sub .., nullary_bufs_sub .., binary_bufs_sub .., binary_bufs_sub .., reshape_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩

/-- The operations of @main's window 1, in order (39 of them). -/
abbrev ops1 : List (HloOp τ sig (Elt F)) :=
  [ StableHlo.nullary main_c_10 (constantI S_ 32 137#32),
    StableHlo.unary main_c_10 main_v48 (broadcastInDim S136 ![] bcast_S_S136 : (⟨S_, .i32⟩ : BufTy).Contents (Elt F) → (⟨S136, .i32⟩ : BufTy).Contents (Elt F)),
    StableHlo.binary main_c main_v48 main_v49 (addi : (⟨S136, .i32⟩ : BufTy).Contents (Elt F) → (⟨S136, .i32⟩ : BufTy).Contents (Elt F) → (⟨S136, .i32⟩ : BufTy).Contents (Elt F)),
    StableHlo.ternary main_v47 main_v49 main_c main_v50 (select : (⟨S136, .i1⟩ : BufTy).Contents (Elt F) → (⟨S136, .i32⟩ : BufTy).Contents (Elt F) → (⟨S136, .i32⟩ : BufTy).Contents (Elt F) → (⟨S136, .i32⟩ : BufTy).Contents (Elt F)),
    StableHlo.unary main_v50 main_v51 (broadcastInDim S136x1 ![0] bcast_S136_S136x1_0 : (⟨S136, .i32⟩ : BufTy).Contents (Elt F) → (⟨S136x1, .i32⟩ : BufTy).Contents (Elt F)),
    StableHlo.binary main_v30 main_v51 main_v52 ((fun x i => Host.gather gather_S128x512x137x2_S136x1_S128x512x136x2_013_2_n_n_2_1_12851212 x i) : (⟨S128x512x137x2, .f32⟩ : BufTy).Contents (Elt F) → (⟨S136x1, .i32⟩ : BufTy).Contents (Elt F) → (⟨S128x512x136x2, .f32⟩ : BufTy).Contents (Elt F)),
    StableHlo.nullary main_c_11 (constantI S_ 32 0#32),
    StableHlo.unary main_c_11 main_v53 (broadcastInDim S136 ![] bcast_S_S136 : (⟨S_, .i32⟩ : BufTy).Contents (Elt F) → (⟨S136, .i32⟩ : BufTy).Contents (Elt F)),
    StableHlo.binary main_c_0 main_v53 main_v54 (cmpi .slt : (⟨S136, .i32⟩ : BufTy).Contents (Elt F) → (⟨S136, .i32⟩ : BufTy).Contents (Elt F) → (⟨S136, .i1⟩ : BufTy).Contents (Elt F)),
    StableHlo.nullary main_c_12 (constantI S_ 32 137#32),
    StableHlo.unary main_c_12 main_v55 (broadcastInDim S136 ![] bcast_S_S136 : (⟨S_, .i32⟩ : BufTy).Contents (Elt F) → (⟨S136, .i32⟩ : BufTy).Contents (Elt F)),
    StableHlo.binary main_c_0 main_v55 main_v56 (addi : (⟨S136, .i32⟩ : BufTy).Contents (Elt F) → (⟨S136, .i32⟩ : BufTy).Contents (Elt F) → (⟨S136, .i32⟩ : BufTy).Contents (Elt F)),
    StableHlo.ternary main_v54 main_v56 main_c_0 main_v57 (select : (⟨S136, .i1⟩ : BufTy).Contents (Elt F) → (⟨S136, .i32⟩ : BufTy).Contents (Elt F) → (⟨S136, .i32⟩ : BufTy).Contents (Elt F) → (⟨S136, .i32⟩ : BufTy).Contents (Elt F)),
    StableHlo.unary main_v57 main_v58 (broadcastInDim S136x1 ![0] bcast_S136_S136x1_0 : (⟨S136, .i32⟩ : BufTy).Contents (Elt F) → (⟨S136x1, .i32⟩ : BufTy).Contents (Elt F)),
    StableHlo.binary main_v30 main_v58 main_v59 ((fun x i => Host.gather gather_S128x512x137x2_S136x1_S128x512x136x2_013_2_n_n_2_1_12851212 x i) : (⟨S128x512x137x2, .f32⟩ : BufTy).Contents (Elt F) → (⟨S136x1, .i32⟩ : BufTy).Contents (Elt F) → (⟨S128x512x136x2, .f32⟩ : BufTy).Contents (Elt F)),
    StableHlo.binary main_v52 main_v59 main_v60 (subf : (⟨S128x512x136x2, .f32⟩ : BufTy).Contents (Elt F) → (⟨S128x512x136x2, .f32⟩ : BufTy).Contents (Elt F) → (⟨S128x512x136x2, .f32⟩ : BufTy).Contents (Elt F)),
    StableHlo.binary main_v45 main_v60 main_v61 (subf : (⟨S128x512x136x2, .f32⟩ : BufTy).Contents (Elt F) → (⟨S128x512x136x2, .f32⟩ : BufTy).Contents (Elt F) → (⟨S128x512x136x2, .f32⟩ : BufTy).Contents (Elt F)),
    StableHlo.binary main_v61 main_v61 main_v62 (mulf : (⟨S128x512x136x2, .f32⟩ : BufTy).Contents (Elt F) → (⟨S128x512x136x2, .f32⟩ : BufTy).Contents (Elt F) → (⟨S128x512x136x2, .f32⟩ : BufTy).Contents (Elt F)),
    StableHlo.nullary main_cst_13 (constant S_ .f32 0x00000000#32),
    StableHlo.binary main_v62 main_cst_13 main_v63 ((fun x v => Host.reduceAdd x v reducesTo_S128x512x136x2_S128x512x136_d3 h_S_) : (⟨S128x512x136x2, .f32⟩ : BufTy).Contents (Elt F) → (⟨S_, .f32⟩ : BufTy).Contents (Elt F) → (⟨S128x512x136, .f32⟩ : BufTy).Contents (Elt F)),
    StableHlo.nullary main_cst_14 (constant S_ .f32 0x40000000#32),
    StableHlo.unary main_cst_14 main_v64 (broadcastInDim S128x512x136 ![] bcast_S_S128x512x136 : (⟨S_, .f32⟩ : BufTy).Contents (Elt F) → (⟨S128x512x136, .f32⟩ : BufTy).Contents (Elt F)),
    StableHlo.binary main_v63 main_v64 main_v65 (Host.divf : (⟨S128x512x136, .f32⟩ : BufTy).Contents (Elt F) → (⟨S128x512x136, .f32⟩ : BufTy).Contents (Elt F) → (⟨S128x512x136, .f32⟩ : BufTy).Contents (Elt F)),
    StableHlo.nullary main_cst_15 (constant S_ .f32 0x00000000#32),
    StableHlo.binary main_v65 main_cst_15 main_v66 ((fun x v => Host.reduceAdd x v reducesTo_S128x512x136_S128x512_d2 h_S_) : (⟨S128x512x136, .f32⟩ : BufTy).Contents (Elt F) → (⟨S_, .f32⟩ : BufTy).Contents (Elt F) → (⟨S128x512, .f32⟩ : BufTy).Contents (Elt F)),
    StableHlo.nullary main_cst_16 (constant S_ .f32 0x43080000#32),
    StableHlo.unary main_cst_16 main_v67 (broadcastInDim S128x512 ![] bcast_S_S128x512 : (⟨S_, .f32⟩ : BufTy).Contents (Elt F) → (⟨S128x512, .f32⟩ : BufTy).Contents (Elt F)),
    StableHlo.binary main_v66 main_v67 main_v68 (Host.divf : (⟨S128x512, .f32⟩ : BufTy).Contents (Elt F) → (⟨S128x512, .f32⟩ : BufTy).Contents (Elt F) → (⟨S128x512, .f32⟩ : BufTy).Contents (Elt F)),
    StableHlo.binary main_v68 main_v8 main_v69 (mulf : (⟨S128x512, .f32⟩ : BufTy).Contents (Elt F) → (⟨S128x512, .f32⟩ : BufTy).Contents (Elt F) → (⟨S128x512, .f32⟩ : BufTy).Contents (Elt F)),
    StableHlo.nullary main_cst_17 (constant S_ .f32 0x00000000#32),
    StableHlo.binary main_v69 main_cst_17 main_v70 ((fun x v => Host.reduceAdd x v reducesTo_S128x512_S_d0_1 h_S_) : (⟨S128x512, .f32⟩ : BufTy).Contents (Elt F) → (⟨S_, .f32⟩ : BufTy).Contents (Elt F) → (⟨S_, .f32⟩ : BufTy).Contents (Elt F)),
    StableHlo.nullary main_cst_18 (constant S_ .f32 0x00000000#32),
    StableHlo.binary main_v8 main_cst_18 main_v71 ((fun x v => Host.reduceAdd x v reducesTo_S128x512_S_d0_1 h_S_) : (⟨S128x512, .f32⟩ : BufTy).Contents (Elt F) → (⟨S_, .f32⟩ : BufTy).Contents (Elt F) → (⟨S_, .f32⟩ : BufTy).Contents (Elt F)),
    StableHlo.binary main_v70 main_v71 main_v72 (Host.divf : (⟨S_, .f32⟩ : BufTy).Contents (Elt F) → (⟨S_, .f32⟩ : BufTy).Contents (Elt F) → (⟨S_, .f32⟩ : BufTy).Contents (Elt F)),
    StableHlo.nullary main_cst_19 (constant S_ .f32 0x3F800000#32),
    StableHlo.binary main_cst_19 main_v28 main_v73 (mulf : (⟨S_, .f32⟩ : BufTy).Contents (Elt F) → (⟨S_, .f32⟩ : BufTy).Contents (Elt F) → (⟨S_, .f32⟩ : BufTy).Contents (Elt F)),
    StableHlo.nullary main_cst_20 (constant S_ .f32 0x3DCCCCCD#32),
    StableHlo.binary main_cst_20 main_v72 main_v74 (mulf : (⟨S_, .f32⟩ : BufTy).Contents (Elt F) → (⟨S_, .f32⟩ : BufTy).Contents (Elt F) → (⟨S_, .f32⟩ : BufTy).Contents (Elt F)),
    StableHlo.binary main_v73 main_v74 main_v75 (addf : (⟨S_, .f32⟩ : BufTy).Contents (Elt F) → (⟨S_, .f32⟩ : BufTy).Contents (Elt F) → (⟨S_, .f32⟩ : BufTy).Contents (Elt F)) ]

set_option maxRecDepth 8192 in
theorem ops1_sub : (ops1 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub ..⟩

end Cert.ReferenceIdeal.RefRun

end
-- ==== Proof.RefRun.lean ====
/-
  The reference program run as a whole.

  Its @main is a straight line of 99 host operations, printed in two windows. Here the line is read back: every
  weakly fair execution terminates, the three results are named pure functions of the three argument arrays, and
  the arguments end unchanged.

  The functions are the program's own operations composed in the order of the program:
  * `tpOf`: the target poses [128, 2, 512, 137] transposed to [128, 512, 137, 2] and relaid as [128, 512, 274];
  * `maskOf`, `pmaskOf`: the 0/1 masks "step s is before the sample's length" over [128, 512] and "step s is before
    the length less one" over [128, 511], each a signed comparison of a broadcast step counter with the broadcast
    lengths, converted to a float;
  * `poseRowsOf`, `poseOf`: the mean absolute difference over the 274 coordinates between the prediction at step s
    and the target at step s + 1, then its mask-weighted total over (b, s) divided by the total weight;
  * `startsOf`, `sqDiffOf`, `boneRowsOf`, `boneOf`: the joints' index lists (a negative entry would wrap by 137),
    the four gathers of joint pairs out of the arrays relaid as [128, 512, 137, 2], the squared difference of the two
    bone vectors, its half-sum over the two channels summed over the 136 bones and divided by 136, then the
    mask-weighted total over (b, s) divided by the total weight;
  * `totalOf`: 1.0 · pose + 0.1 · bone.
-/
import proofs.«104244_j2130303779193_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program is the line of its operations -/

/-- @main's 99 operations, in order: the first window's, then the second's. -/
abbrev ops : List (HloOp τ sig (Elt F)) := ops0 ++ ops1

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

set_option maxRecDepth 8192 in
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- The contents after two lines run one after the other: the second line's, from the first line's. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-! ## The results as functions of the arguments -/

/-- The target poses relaid: [128, 2, 512, 137] transposed to [128, 512, 137, 2], then read row-major as [128, 512, 274]. -/
def tpOf (a1 : (⟨S128x2x512x137, .f32⟩ : BufTy).Contents (Elt F)) : (⟨S128x512x274, .f32⟩ : BufTy).Contents (Elt F) :=
  shapeCast S128x512x274
    (((transpose S128x512x137x2 [0, 2, 3, 1] · transposes_S128x2x512x137_S128x512x137x2_0_2_3_1) : (⟨S128x2x512x137, .f32⟩ : BufTy).Contents (Elt F) → (⟨S128x512x137x2, .f32⟩ : BufTy).Contents (Elt F)) a1)
    shapeCasts_S128x512x137x2_S128x512x274

/-- The mask over [128, 512]: 1.0 where the step counter is (signed) below the sample's length, else 0.0. -/
def maskOf (a2 : (⟨S128, .i32⟩ : BufTy).Contents (Elt F)) : (⟨S128x512, .f32⟩ : BufTy).Contents (Elt F) :=
  (uitofp .f32 : (⟨S128x512, .i1⟩ : BufTy).Contents (Elt F) → (⟨S128x512, .f32⟩ : BufTy).Contents (Elt F))
    ((cmpi .slt : (⟨S128x512, .i32⟩ : BufTy).Contents (Elt F) → (⟨S128x512, .i32⟩ : BufTy).Contents (Elt F) → (⟨S128x512, .i1⟩ : BufTy).Contents (Elt F))
      ((broadcastInDim S128x512 ![0, 1] bcast_S1x512_S128x512_0_1 : (⟨S1x512, .i32⟩ : BufTy).Contents (Elt F) → (⟨S128x512, .i32⟩ : BufTy).Contents (Elt F))
        ((broadcastInDim S1x512 ![1] bcast_S512_S1x512_1 : (⟨S512, .i32⟩ : BufTy).Contents (Elt F) → (⟨S1x512, .i32⟩ : BufTy).Contents (Elt F)) (iotaInDim S512 32 0)))
      ((broadcastInDim S128x512 ![0, 1] bcast_S128x1_S128x512_0_1 : (⟨S128x1, .i32⟩ : BufTy).Contents (Elt F) → (⟨S128x512, .i32⟩ : BufTy).Contents (Elt F))
        ((broadcastInDim S128x1 ![0] bcast_S128_S128x1_0 : (⟨S128, .i32⟩ : BufTy).Contents (Elt F) → (⟨S128x1, .i32⟩ : BufTy).Contents (Elt F)) a2)))

/-- The mask over [128, 511]: 1.0 where the step counter is (signed) below the sample's length less one, else 0.0. -/
def pmaskOf (a2 : (⟨S128, .i32⟩ : BufTy).Contents (Elt F)) : (⟨S128x511, .f32⟩ : BufTy).Contents (Elt F) :=
  (uitofp .f32 : (⟨S128x511, .i1⟩ : BufTy).Contents (Elt F) → (⟨S128x511, .f32⟩ : BufTy).Contents (Elt F))
    ((cmpi .slt : (⟨S128x511, .i32⟩ : BufTy).Contents (Elt F) → (⟨S128x511, .i32⟩ : BufTy).Contents (Elt F) → (⟨S128x511, .i1⟩ : BufTy).Contents (Elt F))
      ((broadcastInDim S128x511 ![0, 1] bcast_S1x511_S128x511_0_1 : (⟨S1x511, .i32⟩ : BufTy).Contents (Elt F) → (⟨S128x511, .i32⟩ : BufTy).Contents (Elt F))
        ((broadcastInDim S1x511 ![1] bcast_S511_S1x511_1 : (⟨S511, .i32⟩ : BufTy).Contents (Elt F) → (⟨S1x511, .i32⟩ : BufTy).Contents (Elt F))
          (((extractStridedSlice S511 ![0] · slices_S512_S511_0) : (⟨S512, .i32⟩ : BufTy).Contents (Elt F) → (⟨S511, .i32⟩ : BufTy).Contents (Elt F)) (iotaInDim S512 32 0))))
      ((broadcastInDim S128x511 ![0, 1] bcast_S128x1_S128x511_0_1 : (⟨S128x1, .i32⟩ : BufTy).Contents (Elt F) → (⟨S128x511, .i32⟩ : BufTy).Contents (Elt F))
        ((broadcastInDim S128x1 ![0] bcast_S128_S128x1_0 : (⟨S128, .i32⟩ : BufTy).Contents (Elt F) → (⟨S128x1, .i32⟩ : BufTy).Contents (Elt F))
          ((subi : (⟨S128, .i32⟩ : BufTy).Contents (Elt F) → (⟨S128, .i32⟩ : BufTy).Contents (Elt F) → (⟨S128, .i32⟩ : BufTy).Contents (Elt F)) a2
            ((broadcastInDim S128 ![] bcast_S_S128 : (⟨S_, .i32⟩ : BufTy).Contents (Elt F) → (⟨S128, .i32⟩ : BufTy).Contents (Elt F)) (constantI S_ 32 1#32))))))

/-- The pose term of every (b, s), s < 511: the sum over the 274 coordinates of |a0[b,s,d] − tp[b,s+1,d]|, divided by 274. -/
def poseRowsOf (a0 tp : (⟨S128x512x274, .f32⟩ : BufTy).Contents (Elt F)) : (⟨S128x511, .f32⟩ : BufTy).Contents (Elt F) :=
  (Host.divf : (⟨S128x511, .f32⟩ : BufTy).Contents (Elt F) → (⟨S128x511, .f32⟩ : BufTy).Contents (Elt F) → (⟨S128x511, .f32⟩ : BufTy).Contents (Elt F))
    (((fun x v => Host.reduceAdd x v reducesTo_S128x511x274_S128x511_d2 h_S_) : (⟨S128x511x274, .f32⟩ : BufTy).Contents (Elt F) → (⟨S_, .f32⟩ : BufTy).Contents (Elt F) → (⟨S128x511, .f32⟩ : BufTy).Contents (Elt F))
      ((Host.absf : (⟨S128x511x274, .f32⟩ : BufTy).Contents (Elt F) → (⟨S128x511x274, .f32⟩ : BufTy).Contents (Elt F))
        ((subf : (⟨S128x511x274, .f32⟩ : BufTy).Contents (Elt F) → (⟨S128x511x274, .f32⟩ : BufTy).Contents (Elt F) → (⟨S128x511x274, .f32⟩ : BufTy).Contents (Elt F))
          (((extractStridedSlice S128x511x274 ![0, 0, 0] · slices_S128x512x274_S128x511x274_0_0_0) : (⟨S128x512x274, .f32⟩ : BufTy).Contents (Elt F) → (⟨S128x511x274, .f32⟩ : BufTy).Contents (Elt F)) a0)
          (((extractStridedSlice S128x511x274 ![0, 1, 0] · slices_S128x512x274_S128x511x274_0_1_0) : (⟨S128x512x274, .f32⟩ : BufTy).Contents (Elt F) → (⟨S128x511x274, .f32⟩ : BufTy).Contents (Elt F)) tp)))
      (constant S_ .f32 0x00000000#32))
    ((broadcastInDim S128x511 ![] bcast_S_S128x511 : (⟨S_, .f32⟩ : BufTy).Contents (Elt F) → (⟨S128x511, .f32⟩ : BufTy).Contents (Elt F)) (constant S_ .f32 0x43890000#32))

/-- The pose loss: the total over (b, s) of the pose term times the mask, divided by the total of the mask. -/
def poseOf (a0 tp : (⟨S128x512x274, .f32⟩ : BufTy).Contents (Elt F)) (pm : (⟨S128x511, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F))
    (((fun x v => Host.reduceAdd x v reducesTo_S128x511_S_d0_1 h_S_) : (⟨S128x511, .f32⟩ : BufTy).Contents (Elt F) → (⟨S_, .f32⟩ : BufTy).Contents (Elt F) → (⟨S_, .f32⟩ : BufTy).Contents (Elt F))
      ((mulf : (⟨S128x511, .f32⟩ : BufTy).Contents (Elt F) → (⟨S128x511, .f32⟩ : BufTy).Contents (Elt F) → (⟨S128x511, .f32⟩ : BufTy).Contents (Elt F)) (poseRowsOf a0 tp) pm)
      (constant S_ .f32 0x00000000#32))
    (((fun x v => Host.reduceAdd x v reducesTo_S128x511_S_d0_1 h_S_) : (⟨S128x511, .f32⟩ : BufTy).Contents (Elt F) → (⟨S_, .f32⟩ : BufTy).Contents (Elt F) → (⟨S_, .f32⟩ : BufTy).Contents (Elt F)) pm (constant S_ .f32 0x00000000#32))

/-- The joints' first index list, 1 … 136, as the program's constant table. -/
def conn0 : (⟨S136, .i32⟩ : BufTy).Contents (Elt F) := fun i => lit0 (S136.rowMajor i)
/-- The joints' second index list, 0 … 135, as the program's constant table. -/
def conn1 : (⟨S136, .i32⟩ : BufTy).Contents (Elt F) := fun i => lit1 (S136.rowMajor i)

/-- An index list made a column of start indices: an entry (signed) below 0 has 137 added, the others stay. -/
def startsOf (c : (⟨S136, .i32⟩ : BufTy).Contents (Elt F)) : (⟨S136x1, .i32⟩ : BufTy).Contents (Elt F) :=
  (broadcastInDim S136x1 ![0] bcast_S136_S136x1_0 : (⟨S136, .i32⟩ : BufTy).Contents (Elt F) → (⟨S136x1, .i32⟩ : BufTy).Contents (Elt F))
    ((select : (⟨S136, .i1⟩ : BufTy).Contents (Elt F) → (⟨S136, .i32⟩ : BufTy).Contents (Elt F) → (⟨S136, .i32⟩ : BufTy).Contents (Elt F) → (⟨S136, .i32⟩ : BufTy).Contents (Elt F))
      ((cmpi .slt : (⟨S136, .i32⟩ : BufTy).Contents (Elt F) → (⟨S136, .i32⟩ : BufTy).Contents (Elt F) → (⟨S136, .i1⟩ : BufTy).Contents (Elt F)) c
        ((broadcastInDim S136 ![] bcast_S_S136 : (⟨S_, .i32⟩ : BufTy).Contents (Elt F) → (⟨S136, .i32⟩ : BufTy).Contents (Elt F)) (constantI S_ 32 0#32)))
      ((addi : (⟨S136, .i32⟩ : BufTy).Contents (Elt F) → (⟨S136, .i32⟩ : BufTy).Contents (Elt F) → (⟨S136, .i32⟩ : BufTy).Contents (Elt F)) c
        ((broadcastInDim S136 ![] bcast_S_S136 : (⟨S_, .i32⟩ : BufTy).Contents (Elt F) → (⟨S136, .i32⟩ : BufTy).Contents (Elt F)) (constantI S_ 32 137#32)))
      c)

/-- The joints of an array [128, 512, 274] read as [128, 512, 137, 2], gathered along the joint axis at a list's entries. -/
def jointsOf (x : (⟨S128x512x274, .f32⟩ : BufTy).Contents (Elt F)) (c : (⟨S136, .i32⟩ : BufTy).Contents (Elt F)) : (⟨S128x512x136x2, .f32⟩ : BufTy).Contents (Elt F) :=
  ((fun x i => Host.gather gather_S128x512x137x2_S136x1_S128x512x136x2_013_2_n_n_2_1_12851212 x i) : (⟨S128x512x137x2, .f32⟩ : BufTy).Contents (Elt F) → (⟨S136x1, .i32⟩ : BufTy).Contents (Elt F) → (⟨S128x512x136x2, .f32⟩ : BufTy).Contents (Elt F))
    (shapeCast S128x512x137x2 x shapeCasts_S128x512x274_S128x512x137x2) (startsOf c)

/-- The difference of the predicted and the target bone vectors, at every (b, s, bone, channel): each bone vector is
    the joint of the first list less the joint of the second. -/
def diffOf (a0 tp : (⟨S128x512x274, .f32⟩ : BufTy).Contents (Elt F)) : (⟨S128x512x136x2, .f32⟩ : BufTy).Contents (Elt F) :=
  (subf : (⟨S128x512x136x2, .f32⟩ : BufTy).Contents (Elt F) → (⟨S128x512x136x2, .f32⟩ : BufTy).Contents (Elt F) → (⟨S128x512x136x2, .f32⟩ : BufTy).Contents (Elt F))
    ((subf : (⟨S128x512x136x2, .f32⟩ : BufTy).Contents (Elt F) → (⟨S128x512x136x2, .f32⟩ : BufTy).Contents (Elt F) → (⟨S128x512x136x2, .f32⟩ : BufTy).Contents (Elt F)) (jointsOf a0 conn0) (jointsOf a0 conn1))
    ((subf : (⟨S128x512x136x2, .f32⟩ : BufTy).Contents (Elt F) → (⟨S128x512x136x2, .f32⟩ : BufTy).Contents (Elt F) → (⟨S128x512x136x2, .f32⟩ : BufTy).Contents (Elt F)) (jointsOf tp conn0) (jointsOf tp conn1))

/-- Its square, entry by entry. -/
def sqDiffOf (a0 tp : (⟨S128x512x274, .f32⟩ : BufTy).Contents (Elt F)) : (⟨S128x512x136x2, .f32⟩ : BufTy).Contents (Elt F) :=
  (mulf : (⟨S128x512x136x2, .f32⟩ : BufTy).Contents (Elt F) → (⟨S128x512x136x2, .f32⟩ : BufTy).Contents (Elt F) → (⟨S128x512x136x2, .f32⟩ : BufTy).Contents (Elt F)) (diffOf a0 tp) (diffOf a0 tp)

/-- The bone term of every (b, s): over the 136 bones the half-sum over the two channels, divided by 136. -/
def boneRowsOf (a0 tp : (⟨S128x512x274, .f32⟩ : BufTy).Contents (Elt F)) : (⟨S128x512, .f32⟩ : BufTy).Contents (Elt F) :=
  (Host.divf : (⟨S128x512, .f32⟩ : BufTy).Contents (Elt F) → (⟨S128x512, .f32⟩ : BufTy).Contents (Elt F) → (⟨S128x512, .f32⟩ : BufTy).Contents (Elt F))
    (((fun x v => Host.reduceAdd x v reducesTo_S128x512x136_S128x512_d2 h_S_) : (⟨S128x512x136, .f32⟩ : BufTy).Contents (Elt F) → (⟨S_, .f32⟩ : BufTy).Contents (Elt F) → (⟨S128x512, .f32⟩ : BufTy).Contents (Elt F))
      ((Host.divf : (⟨S128x512x136, .f32⟩ : BufTy).Contents (Elt F) → (⟨S128x512x136, .f32⟩ : BufTy).Contents (Elt F) → (⟨S128x512x136, .f32⟩ : BufTy).Contents (Elt F))
        (((fun x v => Host.reduceAdd x v reducesTo_S128x512x136x2_S128x512x136_d3 h_S_) : (⟨S128x512x136x2, .f32⟩ : BufTy).Contents (Elt F) → (⟨S_, .f32⟩ : BufTy).Contents (Elt F) → (⟨S128x512x136, .f32⟩ : BufTy).Contents (Elt F))
          (sqDiffOf a0 tp) (constant S_ .f32 0x00000000#32))
        ((broadcastInDim S128x512x136 ![] bcast_S_S128x512x136 : (⟨S_, .f32⟩ : BufTy).Contents (Elt F) → (⟨S128x512x136, .f32⟩ : BufTy).Contents (Elt F)) (constant S_ .f32 0x40000000#32)))
      (constant S_ .f32 0x00000000#32))
    ((broadcastInDim S128x512 ![] bcast_S_S128x512 : (⟨S_, .f32⟩ : BufTy).Contents (Elt F) → (⟨S128x512, .f32⟩ : BufTy).Contents (Elt F)) (constant S_ .f32 0x43080000#32))

/-- The bone loss: the total over (b, s) of the bone term times the mask, divided by the total of the mask. -/
def boneOf (a0 tp : (⟨S128x512x274, .f32⟩ : BufTy).Contents (Elt F)) (mk : (⟨S128x512, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F))
    (((fun x v => Host.reduceAdd x v reducesTo_S128x512_S_d0_1 h_S_) : (⟨S128x512, .f32⟩ : BufTy).Contents (Elt F) → (⟨S_, .f32⟩ : BufTy).Contents (Elt F) → (⟨S_, .f32⟩ : BufTy).Contents (Elt F))
      ((mulf : (⟨S128x512, .f32⟩ : BufTy).Contents (Elt F) → (⟨S128x512, .f32⟩ : BufTy).Contents (Elt F) → (⟨S128x512, .f32⟩ : BufTy).Contents (Elt F)) (boneRowsOf a0 tp) mk)
      (constant S_ .f32 0x00000000#32))
    (((fun x v => Host.reduceAdd x v reducesTo_S128x512_S_d0_1 h_S_) : (⟨S128x512, .f32⟩ : BufTy).Contents (Elt F) → (⟨S_, .f32⟩ : BufTy).Contents (Elt F) → (⟨S_, .f32⟩ : BufTy).Contents (Elt F)) mk (constant S_ .f32 0x00000000#32))

/-- The total loss: 1.0 · pose + 0.1 · bone, the two weights as the program's binary words. -/
def totalOf (pose bone : (⟨S_, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F))
    ((mulf : (⟨S_, .f32⟩ : BufTy).Contents (Elt F) → (⟨S_, .f32⟩ : BufTy).Contents (Elt F) → (⟨S_, .f32⟩ : BufTy).Contents (Elt F)) (constant S_ .f32 0x3F800000#32) pose)
    ((mulf : (⟨S_, .f32⟩ : BufTy).Contents (Elt F) → (⟨S_, .f32⟩ : BufTy).Contents (Elt F) → (⟨S_, .f32⟩ : BufTy).Contents (Elt F)) (constant S_ .f32 0x3DCCCCCD#32) bone)

/-! ## The line read back at a buffer -/

/-- No operation of the line writes an argument: a reference written by no operation of either window keeps its contents. -/
theorem kept {r : Ref sig .tc}
    (h0 : ∀ op ∈ (ops0 : List (HloOp τ sig (Elt F))), Proc.devRef (τ := τ) .tc r ∉ op.writes)
    (h1 : ∀ op ∈ (ops1 : List (HloOp τ sig (Elt F))), Proc.devRef (τ := τ) .tc r ∉ op.writes)
    (V : Valuation τ sig (Elt F)) : after ops V (Proc.devRef .tc r) = V (Proc.devRef .tc r) := by
  rw [ops, after_concat, after_of_forall_not_mem _ _ h1, after_of_forall_not_mem _ _ h0]

set_option maxRecDepth 8192 in
theorem arg0_kept (V : Valuation τ sig (Elt F)) : after ops V (Proc.devRef .tc main_arg0) = V (Proc.devRef .tc main_arg0) :=
  kept (r := main_arg0) (List.forall_iff_forall_mem.mp (by
      simp only [ops0, List.Forall, nullary_writes, unary_writes, binary_writes, ternary_writes, reshape_writes, Finset.mem_singleton]
      repeat' apply And.intro
      all_goals exact devRef_ne_of_ne (by decide)))
    (List.forall_iff_forall_mem.mp (by
      simp only [ops1, List.Forall, nullary_writes, unary_writes, binary_writes, ternary_writes, reshape_writes, Finset.mem_singleton]
      repeat' apply And.intro
      all_goals exact devRef_ne_of_ne (by decide))) V

set_option maxRecDepth 8192 in
theorem arg1_kept (V : Valuation τ sig (Elt F)) : after ops V (Proc.devRef .tc main_arg1) = V (Proc.devRef .tc main_arg1) :=
  kept (r := main_arg1) (List.forall_iff_forall_mem.mp (by
      simp only [ops0, List.Forall, nullary_writes, unary_writes, binary_writes, ternary_writes, reshape_writes, Finset.mem_singleton]
      repeat' apply And.intro
      all_goals exact devRef_ne_of_ne (by decide)))
    (List.forall_iff_forall_mem.mp (by
      simp only [ops1, List.Forall, nullary_writes, unary_writes, binary_writes, ternary_writes, reshape_writes, Finset.mem_singleton]
      repeat' apply And.intro
      all_goals exact devRef_ne_of_ne (by decide))) V

set_option maxRecDepth 8192 in
theorem arg2_kept (V : Valuation τ sig (Elt F)) : after ops V (Proc.devRef .tc main_arg2) = V (Proc.devRef .tc main_arg2) :=
  kept (r := main_arg2) (List.forall_iff_forall_mem.mp (by
      simp only [ops0, List.Forall, nullary_writes, unary_writes, binary_writes, ternary_writes, reshape_writes, Finset.mem_singleton]
      repeat' apply And.intro
      all_goals exact devRef_ne_of_ne (by decide)))
    (List.forall_iff_forall_mem.mp (by
      simp only [ops1, List.Forall, nullary_writes, unary_writes, binary_writes, ternary_writes, reshape_writes, Finset.mem_singleton]
      repeat' apply And.intro
      all_goals exact devRef_ne_of_ne (by decide))) V

set_option maxHeartbeats 40000000 in
set_option maxRecDepth 8192 in
/-- After the line the pose loss's buffer holds `poseOf` of the arguments. -/
theorem val_v28 (V : Valuation τ sig (Elt F)) :
    after ops V (Proc.devRef .tc main_v28) = poseOf (V (Proc.devRef .tc main_arg0)) (tpOf (V (Proc.devRef .tc main_arg1))) (pmaskOf (V (Proc.devRef .tc main_arg2))) := by
  unfold ops
  rw [after_concat]
  after_results_simp <;> rfl

set_option maxHeartbeats 40000000 in
set_option maxRecDepth 8192 in
/-- After the line the bone loss's buffer holds `boneOf` of the arguments. -/
theorem val_v72 (V : Valuation τ sig (Elt F)) :
    after ops V (Proc.devRef .tc main_v72) = boneOf (V (Proc.devRef .tc main_arg0)) (tpOf (V (Proc.devRef .tc main_arg1))) (maskOf (V (Proc.devRef .tc main_arg2))) := by
  unfold ops
  rw [after_concat]
  after_results_simp <;> rfl

set_option maxHeartbeats 40000000 in
set_option maxRecDepth 8192 in
/-- After the line the total's buffer holds `totalOf` of the two losses. -/
theorem val_v75 (V : Valuation τ sig (Elt F)) :
    after ops V (Proc.devRef .tc main_v75) = totalOf (poseOf (V (Proc.devRef .tc main_arg0)) (tpOf (V (Proc.devRef .tc main_arg1))) (pmaskOf (V (Proc.devRef .tc main_arg2)))) (boneOf (V (Proc.devRef .tc main_arg0)) (tpOf (V (Proc.devRef .tc main_arg1))) (maskOf (V (Proc.devRef .tc main_arg2)))) := by
  unfold ops
  rw [after_concat]
  after_results_simp <;> rfl

/-! ## The run -/

/-- On every device, for any float values, from any memory with zero counters: every weakly fair execution of
    @main terminates with the total, the pose loss and the bone loss at `totalOf`, `poseOf` and `boneOf` of the
    arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = totalOf (poseOf (m ((c.tc : Thread nD τ).loc main_arg0)) (tpOf (m ((c.tc : Thread nD τ).loc main_arg1))) (pmaskOf (m ((c.tc : Thread nD τ).loc main_arg2)))) (boneOf (m ((c.tc : Thread nD τ).loc main_arg0)) (tpOf (m ((c.tc : Thread nD τ).loc main_arg1))) (maskOf (m ((c.tc : Thread nD τ).loc main_arg2))))
      ∧ r.2.mem ((c.tc : Thread nD τ).loc main_v28) = poseOf (m ((c.tc : Thread nD τ).loc main_arg0)) (tpOf (m ((c.tc : Thread nD τ).loc main_arg1))) (pmaskOf (m ((c.tc : Thread nD τ).loc main_arg2)))
      ∧ r.2.mem ((c.tc : Thread nD τ).loc main_v72) = boneOf (m ((c.tc : Thread nD τ).loc main_arg0)) (tpOf (m ((c.tc : Thread nD τ).loc main_arg1))) (maskOf (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v75).trans (val_v75 (launchContents m c)),
      (h c main_v28).trans (val_v28 (launchContents m c)),
      (h c main_v72).trans (val_v72 (launchContents m c)),
      (h c main_arg0).trans (arg0_kept (launchContents m c)),
      (h c main_arg1).trans (arg1_kept (launchContents m c)),
      (h c main_arg2).trans (arg2_kept (launchContents m c))⟩)
    (run_seq scopedRefs_eq scopedSems_eq defs main (fun _ => ops) main_eq (fun _ => ops_sub) m ρ)

end Cert.ReferenceIdeal.RefRun

end
-- ==== Proof.RefValuePose.lean ====
/-
  The reference's pose loss is the specification's.

  Read at the exact extended reals, the reference's pose term of (b, s) — the host sum over the last axis of
  |a0[:, :511, :] − tp[:, 1:, :]|, from the zero word, divided by the broadcast 274 — is the specification's
  `poseRow`: the slice from 0 reads step s, the slice from 1 reads step s + 1, the host's absolute value is
  `max x (−x)`, and the one-axis host sum is the initial value plus the sum over the 274 coordinates. The loss is the
  total over all (b, s) of the term times the mask (the host sum over both axes is the initial value plus the sum
  over every index, regrouped as the double sum over the coordinates), divided by the total of the mask.
-/
import proofs.«104244_j2130303779193_2_alg».proof.Proof.RefRun
import proofs.«104244_j2130303779193_2_alg».proof.Proof.LossSpec
import Idealize.ShloMosaic.Lib.IdealHost
import Idealize.ShloMosaic.Lib.ValueLayout
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-- The index the sum over the last axis of [128, 511, 274] inserts coordinate `d` into (b, s) at: (b, s, d). -/
theorem lift_pose (h : S128x511x274.Reduces [2] S128x511) (b : Fin 128) (s : Fin 511) (d : Fin 274) :
    h.lift (ix2 b s) d = ix3 b s d := by
  funext a
  refine Fin.ext ?_
  match a with
  | ⟨0, _⟩ => rfl
  | ⟨1, _⟩ => rfl
  | ⟨2, _⟩ => rfl

/-- One entry of the absolute difference: the prediction at step `s` against the target one step on. -/
theorem absDiff_apply (a0 tp : FVec Ideal S128x512x274 .f32) (b : Fin 128) (s : Fin 511) (d : Fin 274) :
    (Host.absf (F := Ideal) (subf
        (extractStridedSlice S128x511x274 ![0, 0, 0] a0 slices_S128x512x274_S128x511x274_0_0_0)
        (extractStridedSlice S128x511x274 ![0, 1, 0] tp slices_S128x512x274_S128x511x274_0_1_0))) (ix3 b s d)
      = LossSpec.absDiff a0 tp b s d := by
  have e0 := slice3_axis1_apply 0 a0 slices_S128x512x274_S128x511x274_0_0_0 b s d (⟨s.val, by omega⟩ : Fin 512)
    (Nat.zero_add _).symm
  have e1 := slice3_axis1_apply 1 tp slices_S128x512x274_S128x511x274_0_1_0 b s d (⟨s.val + 1, by omega⟩ : Fin 512)
    (Nat.add_comm _ _)
  show max (extractStridedSlice S128x511x274 ![0, 0, 0] a0 slices_S128x512x274_S128x511x274_0_0_0 (ix3 b s d)
        - extractStridedSlice S128x511x274 ![0, 1, 0] tp slices_S128x512x274_S128x511x274_0_1_0 (ix3 b s d))
      (-(extractStridedSlice S128x511x274 ![0, 0, 0] a0 slices_S128x512x274_S128x511x274_0_0_0 (ix3 b s d)
        - extractStridedSlice S128x511x274 ![0, 1, 0] tp slices_S128x512x274_S128x511x274_0_1_0 (ix3 b s d))) = _
  rw [e0, e1]
  rfl

/-- The reference's pose term of (b, s) is the specification's. -/
theorem poseRows_apply (a0 tp : FVec Ideal S128x512x274 .f32) (b : Fin 128) (s : Fin 511) :
    RefRun.poseRowsOf (F := Ideal) a0 tp (ix2 b s) = LossSpec.poseRow a0 tp b s := by
  have hR : S128x511x274.Reduces [2] S128x511 := by decide
  simp only [RefRun.poseRowsOf]
  rw [hostDivf_apply, hostReduceAdd_apply, Ideal.hostReduceAdd_single _ hR, broadcastInDim_scalar_apply, constant_apply,
    constant_apply, Ideal.ofBits_zero_f32, zero_add]
  unfold LossSpec.poseRow LossSpec.w274
  congr 1
  refine Finset.sum_congr rfl fun d _ => ?_
  rw [lift_pose hR b s d]
  exact absDiff_apply a0 tp b s d

/-- The reference's pose loss is the specification's, at its one index. -/
theorem pose_eq (a0 : FVec Ideal S128x512x274 .f32) (tp : FVec Ideal S128x512x274 .f32) (pm : FVec Ideal S128x511 .f32) :
    RefRun.poseOf (F := Ideal) a0 tp pm = fun _ => LossSpec.pose a0 tp pm := by
  funext i
  simp only [RefRun.poseOf]
  rw [hostDivf_apply, hostReduceAdd_apply, hostReduceAdd_apply, Ideal.hostReduceAdd_total _ (fun b => b.elim0),
    Ideal.hostReduceAdd_total _ (fun b => b.elim0), sum_idx2, sum_idx2]
  simp only [constant_apply, Ideal.ofBits_zero_f32, zero_add, mulf_apply, poseRows_apply]
  rfl

end Cert.ReferenceIdeal.RefValue

end
-- ==== Proof.RefGather.lean ====
/-
  The reference's four gathers, read at an index.

  The gather takes, out of an array [128, 512, 137, 2], the joints an index list names: the result at (b, s, c, j) is
  the operand at (b, s, start c, j), where start c is the list's entry c read as a signed integer and clamped into
  [0, 136]. The program first adds 137 to an entry that is (signed) negative; the two lists here, 1 … 136 and
  0 … 135, have none, so start c is c + 1 for the first and c for the second. The operand is an array
  [128, 512, 274] read row-major as [128, 512, 137, 2]: its entry (b, s, k, j) is the array's (b, s, 2k + j). So the
  first list's gather reads coordinate 2(c + 1) + j and the second's 2c + j.
-/
import proofs.«104244_j2130303779193_2_alg».proof.Proof.RefRun
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx

/-- The gathers' dimension numbers: offset axes 0, 1, 3 of the result, the operand's axis 2 collapsed and indexed. -/
abbrev GD := gather_S128x512x137x2_S136x1_S128x512x136x2_013_2_n_n_2_1_12851212

/-! ## The index lists: no entry is negative, and every start is within the joints -/

/-- The first list's entry `k`, after the wrap of negative entries and the clamp into [0, 136]: `k + 1`. -/
theorem lit0_start : ∀ k : Fin 136,
    min (Scalar.select (IntOp.cmpi .slt (lit0 k) 0#32) (IntOp.addi (lit0 k) 137#32) (lit0 k)).toInt.toNat 136 = k.val + 1 := by
  decide

/-- The second list's entry `k`, after the wrap of negative entries and the clamp into [0, 136]: `k`. -/
theorem lit1_start : ∀ k : Fin 136,
    min (Scalar.select (IntOp.cmpi .slt (lit1 k) 0#32) (IntOp.addi (lit1 k) 137#32) (lit1 k)).toInt.toNat 136 = k.val := by
  decide

/-- The column of start indices at row `c`: the list's entry `c`, with 137 added if it is (signed) negative. -/
theorem starts_apply (cn : (⟨S136, .i32⟩ : BufTy).Contents (Elt Ideal)) (c : Fin 136) :
    RefRun.startsOf (F := Ideal) cn (ix2 c (0 : Fin 1))
      = Scalar.select (IntOp.cmpi .slt (cn (ix1 c)) 0#32) (IntOp.addi (cn (ix1 c)) 137#32) (cn (ix1 c)) := by
  simp only [RefRun.startsOf]
  rw [broadcastInDim_apply _ _ _ _ (ix1 c) (fun a => by match a with | ⟨0, _⟩ => rfl)]
  rfl

theorem conn0_apply (c : Fin 136) : RefRun.conn0 (F := Ideal) (ix1 c) = lit0 c := by
  unfold RefRun.conn0
  exact congrArg lit0 (Fin.ext (Shape.rowMajor_val_one _))

theorem conn1_apply (c : Fin 136) : RefRun.conn1 (F := Ideal) (ix1 c) = lit1 c := by
  unfold RefRun.conn1
  exact congrArg lit1 (Fin.ext (Shape.rowMajor_val_one _))

theorem starts0 (c : Fin 136) :
    min (RefRun.startsOf (F := Ideal) RefRun.conn0 (ix2 c (0 : Fin 1))).toInt.toNat 136 = c.val + 1 := by
  rw [starts_apply, conn0_apply]
  exact lit0_start c

theorem starts1 (c : Fin 136) :
    min (RefRun.startsOf (F := Ideal) RefRun.conn1 (ix2 c (0 : Fin 1))).toInt.toNat 136 = c.val := by
  rw [starts_apply, conn1_apply]
  exact lit1_start c

/-! ## The gather at an index -/

/-- The gather at (b, s, c, j) reads the operand at (b, s, k, j), `k` the start index of row `c` read signed and
    clamped into [0, 136]: axes 0, 1 and 3 carry the result's own coordinates (their slices are whole and start at
    0), axis 2 is the start index (its slice has one element). -/
theorem gather_apply {α : Type} (x : S128x512x137x2.Idx → α) (idx : IVec S136x1 32)
    (b : Fin 128) (s : Fin 512) (c : Fin 136) (j : Fin 2) (k : Fin 137)
    (hk : k.val = min (idx (ix2 c (0 : Fin 1))).toInt.toNat 136) :
    Host.gather GD x idx (ix4 b s c j) = x (ix4 b s k j) := by
  unfold Host.gather
  congr 1
  funext a
  refine Fin.ext ?_
  show GD.start (ix4 b s c j) idx a + GD.batchCoord (ix4 b s c j) a + GD.offCoord (ix4 b s c j) a = (ix4 b s k j a).val
  rw [GatherDims.batchCoord_eq_zero _ _ _ List.not_mem_nil, Nat.add_zero]
  match a with
  | ⟨0, _⟩ =>
    unfold GatherDims.start GatherDims.offCoord
    rw [dif_neg (by decide +revert), dif_pos (by decide +revert)]
    exact Nat.zero_add _
  | ⟨1, _⟩ =>
    unfold GatherDims.start GatherDims.offCoord
    rw [dif_neg (by decide +revert), dif_pos (by decide +revert)]
    exact Nat.zero_add _
  | ⟨3, _⟩ =>
    unfold GatherDims.start GatherDims.offCoord
    rw [dif_neg (by decide +revert), dif_pos (by decide +revert)]
    exact Nat.zero_add _
  | ⟨2, _⟩ =>
    unfold GatherDims.start GatherDims.offCoord
    rw [dif_pos (by decide +revert), dif_neg (by decide +revert), Nat.add_zero]
    refine (congrArg (fun q => min (idx q).toInt.toNat 136) (?_ : GD.siIdx (ix4 b s c j) _ = ix2 c (0 : Fin 1))).trans hk.symm
    funext e
    refine Fin.ext ?_
    match e with
    | ⟨0, _⟩ => rfl
    | ⟨1, _⟩ => rfl

/-! ## The relaid array at an index -/

/-- An array [128, 512, 274] read row-major as [128, 512, 137, 2]: the entry (b, s, k, j) is the array's (b, s, 2k + j). -/
theorem relaid_apply {α : Type} (x : S128x512x274.Idx → α) (b : Fin 128) (s : Fin 512) (k : Fin 137) (j : Fin 2)
    (d : Fin 274) (hd : d.val = 2 * k.val + j.val) :
    shapeCast S128x512x137x2 x shapeCasts_S128x512x274_S128x512x137x2 (ix4 b s k j) = x (ix3 b s d) :=
  shapeCast_apply x _ _ _ (by
    rw [Shape.rowMajor_val_three, Shape.rowMajor_val_four]
    show (b.val * 512 + s.val) * 274 + d.val = ((b.val * 512 + s.val) * 137 + k.val) * 2 + j.val
    omega)

/-! ## The joints of an array -/

/-- The first list's joints at (b, s, c, j): the array's coordinate 2(c + 1) + j. -/
theorem joints0_apply (x : FVec Ideal S128x512x274 .f32) (b : Fin 128) (s : Fin 512) (c : Fin 136) (j : Fin 2)
    (d : Fin 274) (hd : d.val = 2 * (c.val + 1) + j.val) :
    RefRun.jointsOf (F := Ideal) x RefRun.conn0 (ix4 b s c j) = x (ix3 b s d) := by
  simp only [RefRun.jointsOf]
  rw [gather_apply _ _ b s c j (⟨c.val + 1, by omega⟩ : Fin 137) (starts0 c).symm]
  exact relaid_apply x b s _ j d hd

/-- The second list's joints at (b, s, c, j): the array's coordinate 2c + j. -/
theorem joints1_apply (x : FVec Ideal S128x512x274 .f32) (b : Fin 128) (s : Fin 512) (c : Fin 136) (j : Fin 2)
    (d : Fin 274) (hd : d.val = 2 * c.val + j.val) :
    RefRun.jointsOf (F := Ideal) x RefRun.conn1 (ix4 b s c j) = x (ix3 b s d) := by
  simp only [RefRun.jointsOf]
  rw [gather_apply _ _ b s c j (⟨c.val, by omega⟩ : Fin 137) (starts1 c).symm]
  exact relaid_apply x b s _ j d hd

end Cert.ReferenceIdeal.RefValue

end
-- ==== Proof.RefValueBone.lean ====
/-
  The reference's bone loss and total are the specification's.

  At (b, s, c, j) the squared difference of the bone vectors reads the two arrays at coordinates 2(c + 1) + j and
  2c + j: that is the specification's `boneSq` at coordinate d = 2c + j, whose bone joins d and d + 2. The bone term
  of (b, s) is then, over the 136 bones, the host sum over the two channels (from the zero word) divided by 2, summed
  (from the zero word) and divided by 136: the specification's pair-by-pair form, which `boneRowPairs_eq` turns into
  the sum over the 272 coordinates divided by 272. The loss is the total over all (b, s) of the term times the mask,
  divided by the total of the mask; the total is 1.0 · pose + 0.1 · bone on the two losses' one entry.
-/
import proofs.«104244_j2130303779193_2_alg».proof.Proof.RefGather
import proofs.«104244_j2130303779193_2_alg».proof.Proof.LossSpec

noncomputable section

open scoped BigOperators

namespace Cert.ReferenceIdeal.RefValue

open Cert.ReferenceIdeal Cert.ReferenceIdeal.Gen Idealize.ShloMosaic Idealize.ShloMosaic.ValueIdx

/-- The squared difference of the bone vectors at (b, s, c, j) is the specification's at coordinate 2c + j. -/
theorem sqDiff_apply (a0 tp : FVec Ideal S128x512x274 .f32) (b : Fin 128) (s : Fin 512) (c : Fin 136) (j : Fin 2) :
    RefRun.sqDiffOf (F := Ideal) a0 tp (ix4 b s c j)
      = LossSpec.boneSq a0 tp b s (⟨2 * c.val + j.val, by omega⟩ : Fin 272) := by
  have hE : ∀ x : FVec Ideal S128x512x274 .f32, RefRun.jointsOf (F := Ideal) x RefRun.conn0 (ix4 b s c j)
      = x (ix3 b s (⟨2 * c.val + j.val + 2, by omega⟩ : Fin 274)) :=
    fun x => joints0_apply x b s c j _ (by show 2 * c.val + j.val + 2 = 2 * (c.val + 1) + j.val; omega)
  have hS : ∀ x : FVec Ideal S128x512x274 .f32, RefRun.jointsOf (F := Ideal) x RefRun.conn1 (ix4 b s c j)
      = x (ix3 b s (⟨2 * c.val + j.val, by omega⟩ : Fin 274)) :=
    fun x => joints1_apply x b s c j _ rfl
  simp only [RefRun.sqDiffOf, RefRun.diffOf]
  rw [mulf_apply, subf_apply, subf_apply, subf_apply, hE a0, hS a0, hE tp, hS tp]
  rfl

/-- The index the sum over the last axis of [128, 512, 136, 2] inserts channel `j` into (b, s, c) at: (b, s, c, j). -/
theorem lift_chan (h : S128x512x136x2.Reduces [3] S128x512x136) (b : Fin 128) (s : Fin 512) (c : Fin 136) (j : Fin 2) :
    h.lift (ix3 b s c) j = ix4 b s c j := by
  funext a
  refine Fin.ext ?_
  match a with
  | ⟨0, _⟩ => rfl
  | ⟨1, _⟩ => rfl
  | ⟨2, _⟩ => rfl
  | ⟨3, _⟩ => rfl

/-- The index the sum over the last axis of [128, 512, 136] inserts bone `c` into (b, s) at: (b, s, c). -/
theorem lift_bone (h : S128x512x136.Reduces [2] S128x512) (b : Fin 128) (s : Fin 512) (c : Fin 136) :
    h.lift (ix2 b s) c = ix3 b s c := by
  funext a
  refine Fin.ext ?_
  match a with
  | ⟨0, _⟩ => rfl
  | ⟨1, _⟩ => rfl
  | ⟨2, _⟩ => rfl

/-- The reference's bone term of (b, s) is the specification's. -/
theorem boneRows_apply (a0 tp : FVec Ideal S128x512x274 .f32) (b : Fin 128) (s : Fin 512) :
    RefRun.boneRowsOf (F := Ideal) a0 tp (ix2 b s) = LossSpec.boneRow a0 tp b s := by
  have hC : S128x512x136x2.Reduces [3] S128x512x136 := by decide
  have hB : S128x512x136.Reduces [2] S128x512 := by decide
  rw [← LossSpec.boneRowPairs_eq]
  simp only [RefRun.boneRowsOf]
  rw [hostDivf_apply, hostReduceAdd_apply, Ideal.hostReduceAdd_single _ hB, broadcastInDim_scalar_apply, constant_apply,
    constant_apply, Ideal.ofBits_zero_f32, zero_add]
  unfold LossSpec.boneRowPairs LossSpec.w136 LossSpec.w2
  congr 1
  refine Finset.sum_congr rfl fun c _ => ?_
  rw [lift_bone hB b s c, hostDivf_apply, hostReduceAdd_apply, Ideal.hostReduceAdd_single _ hC, broadcastInDim_scalar_apply,
    constant_apply, constant_apply, Ideal.ofBits_zero_f32, zero_add]
  congr 1
  refine Finset.sum_congr rfl fun j _ => ?_
  rw [lift_chan hC b s c j]
  exact sqDiff_apply a0 tp b s c j

/-- The reference's bone loss is the specification's, at its one index. -/
theorem bone_eq (a0 tp : FVec Ideal S128x512x274 .f32) (mk : FVec Ideal S128x512 .f32) :
    RefRun.boneOf (F := Ideal) a0 tp mk = fun _ => LossSpec.bone a0 tp mk := by
  funext i
  simp only [RefRun.boneOf]
  rw [hostDivf_apply, hostReduceAdd_apply, hostReduceAdd_apply, Ideal.hostReduceAdd_total _ (fun b => b.elim0),
    Ideal.hostReduceAdd_total _ (fun b => b.elim0), sum_idx2, sum_idx2]
  simp only [constant_apply, Ideal.ofBits_zero_f32, zero_add, mulf_apply, boneRows_apply]
  rfl

/-- The reference's total, on two losses that are constant arrays: the weighted sum of their entries. -/
theorem total_eq (p b : FVec Ideal S_ .f32) (x y : EReal) (hp : p = fun _ => x) (hb : b = fun _ => y) :
    RefRun.totalOf (F := Ideal) p b = fun _ => Cert.LossSpec.w1 * x + Cert.LossSpec.wTenth * y := by
  subst hp hb
  rfl

end Cert.ReferenceIdeal.RefValue

end
-- ==== Proof.RefValue.lean ====
/-
  The reference's three results are the specification's: the pose loss (`pose_eq`), the bone loss (`bone_eq`) and
  their weighted sum (`total_eq`), each proved in the module imported here.
-/
import proofs.«104244_j2130303779193_2_alg».proof.Proof.RefValuePose
import proofs.«104244_j2130303779193_2_alg».proof.Proof.RefValueBone
-- ==== Proof.lean ====
/-
  The criterion of a text-to-pose model — a masked mean absolute error between predicted and target poses one step
  apart, plus a masked mean squared error between their bone vectors — computed two ways: by a kernel that takes
  the samples four at a time, leaves four partial sums per block and lets the host add the 32 blocks' sums and
  divide; and by a host program over the whole arrays that gathers the bones' end points by index lists and takes
  the bone sum pair by pair (half the sum over the two channels, over the 136 bones, divided by 136).

  Over the extended reals the two agree on every input: each side's three results are the same plain sums over
  (sample, step, coordinate) — `Cert.LossSpec` — of the predictions, of the targets relaid by host operations both
  programs share, and of the two 0/1 masks both compute from the lengths by the same operations. The only algebra
  is regrouping finite sums (four samples per block; two channels per bone) and taking the two positive divisors 2
  and 136 through a sum as the one divisor 272, which holds for all extended reals; the precondition is not used.

  The frames of the two kernel programs are their generated frame certificates; the reference has no kernel and its
  frame is its run with the results dropped. The ideal pass rewrote nothing, so there is nothing to preserve.
-/
import proofs.«104244_j2130303779193_2_alg».proof.Defs
import proofs.«104244_j2130303779193_2_alg».proof.Proof.Gen.Kernel
import proofs.«104244_j2130303779193_2_alg».proof.Proof.Gen.Kernel.Frame
import proofs.«104244_j2130303779193_2_alg».proof.Proof.Gen.KernelIdeal
import proofs.«104244_j2130303779193_2_alg».proof.Proof.Gen.KernelIdeal.Frame
import proofs.«104244_j2130303779193_2_alg».proof.Proof.Gen.ReferenceIdeal
import proofs.«104244_j2130303779193_2_alg».proof.Proof.Gen.Pre_finite_inputs
import proofs.«104244_j2130303779193_2_alg».proof.Proof.KValue
import proofs.«104244_j2130303779193_2_alg».proof.Proof.RefValue
import Idealize.ShloMosaic.Adequacy
import Idealize.ShloMosaic.Init

noncomputable section

namespace Cert.Proof

open Idealize.ShloMosaic Idealize.SL.Sem

/-! ## The host operations the two programs share -/

/-- Both programs relay the targets by the same two operations. -/
theorem tp_same (a1 : FVec Ideal Cert.KernelIdeal.S128x2x512x137 .f32) :
    Cert.ReferenceIdeal.RefRun.tpOf (F := Ideal) a1 = Cert.KernelIdeal.KValue.tpOf (F := Ideal) a1 := rfl

/-- Both compute the time-step mask by the same operations. -/
theorem mask_same (a2 : IVec Cert.KernelIdeal.S128 32) :
    Cert.ReferenceIdeal.RefRun.maskOf (F := Ideal) a2 = Cert.KernelIdeal.KValue.maskOf (F := Ideal) a2 := rfl

/-- And the pose mask. -/
theorem pmask_same (a2 : IVec Cert.KernelIdeal.S128 32) :
    Cert.ReferenceIdeal.RefRun.pmaskOf (F := Ideal) a2 = Cert.KernelIdeal.KValue.pmaskOf (F := Ideal) a2 := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame: its run, the three results dropped. -/
theorem frame_ri : Cert.frame_ReferenceIdeal := fun m ρ _ =>
  (θ_run Cert.ReferenceIdeal.defs _ _).mono (fun _ h c => (h c).2.2.2)
    (Cert.ReferenceIdeal.RefRun.run (F := Ideal) m ρ)

theorem preserves : Cert.preserves_Kernel_KernelIdeal := trivial

/-- From memories that agree on the three arguments, both programs end with the specification's total, pose loss
    and bone loss of the same data. -/
theorem algebraic : Cert.algebraic_KernelIdeal_ReferenceIdeal := by
  intro m ρ m' ρ' _ hagree
  refine ⟨_, _, _, Cert.KernelIdeal.KValue.run_spec m ρ, ?_⟩
  refine (θ_run Cert.ReferenceIdeal.defs _ _).mono (fun _ h c => ?_)
    (Cert.ReferenceIdeal.RefRun.run (F := Ideal) m' ρ')
  obtain ⟨h75, h28, h72, hargs⟩ := h c
  obtain ⟨e0, e1, e2⟩ := hagree c
  rw [e0, e1, e2] at h75 h28 h72
  have hp := Cert.ReferenceIdeal.RefValue.pose_eq (m ((c.tc : Thread _ _).loc Cert.KernelIdeal.main_arg0))
    (Cert.ReferenceIdeal.RefRun.tpOf (m ((c.tc : Thread _ _).loc Cert.KernelIdeal.main_arg1)))
    (Cert.ReferenceIdeal.RefRun.pmaskOf (m ((c.tc : Thread _ _).loc Cert.KernelIdeal.main_arg2)))
  have hb := Cert.ReferenceIdeal.RefValue.bone_eq (m ((c.tc : Thread _ _).loc Cert.KernelIdeal.main_arg0))
    (Cert.ReferenceIdeal.RefRun.tpOf (m ((c.tc : Thread _ _).loc Cert.KernelIdeal.main_arg1)))
    (Cert.ReferenceIdeal.RefRun.maskOf (m ((c.tc : Thread _ _).loc Cert.KernelIdeal.main_arg2)))
  have ht := Cert.ReferenceIdeal.RefValue.total_eq _ _ _ _ hp hb
  refine ⟨(h75.trans ht).trans ?_, (h28.trans hp).trans ?_, (h72.trans hb).trans ?_, hargs⟩
  · rw [tp_same, mask_same, pmask_same]; rfl
  · rw [tp_same, pmask_same]; rfl
  · rw [tp_same, mask_same]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
